-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x256 : Shape := ⟨3, ![32, 8192, 256]⟩
abbrev S512x1024 : Shape := ⟨2, ![512, 1024]⟩
abbrev S512 : Shape := ⟨1, ![512]⟩
abbrev S_ : Shape := ⟨0, ![]⟩

class Facts : Prop where
  bcast_S_S32x8192x256 : S_.BroadcastsInDim S32x8192x256 (![] : Fin 0 → Fin S32x8192x256.rank)
  reducesTo_S32x8192x256_S_d0_1_2 : S32x8192x256.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S32x8192x256 .f32) (main_arg1 : FVec F S512x1024 .f32) (main_arg2 : FVec F S512 .f32) : IVec S_ 1 :=
  let main_v0 : FVec F S32x8192x256 .f32 := Host.absf main_arg0
  let main_cst : FVec F S_ .f32 := constant S_ .f32 0x7F800000#32
  let main_v1 : FVec F S32x8192x256 .f32 := broadcastInDim S32x8192x256 ![] bcast_S_S32x8192x256 main_cst
  let main_v2 : IVec S32x8192x256 1 := cmpf .olt main_v0 main_v1
  let main_c : IVec S_ 1 := constantI S_ 1 1#1
  let main_v3 : IVec S_ 1 := (fun x v => Host.reduce IntOp.andi x v reducesTo_S32x8192x256_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S32x8192x256 : Shape := ⟨3, ![32, 8192, 256]⟩
abbrev S512x1024 : Shape := ⟨2, ![512, 1024]⟩
abbrev S512 : Shape := ⟨1, ![512]⟩
abbrev S1024x512 : Shape := ⟨2, ![1024, 512]⟩
abbrev S1x512 : Shape := ⟨2, ![1, 512]⟩
abbrev S32x512 : Shape := ⟨2, ![32, 512]⟩
abbrev S8x1024x256 : Shape := ⟨3, ![8, 1024, 256]⟩
abbrev S8x512 : Shape := ⟨2, ![8, 512]⟩
abbrev S8x256 : Shape := ⟨2, ![8, 256]⟩
abbrev S8x1024 : Shape := ⟨2, ![8, 1024]⟩

abbrev nBuf : Space → Nat
  | .hbm => 6
  | .vmem => 10
  | .smem => 0
  | _ => 0

abbrev bufTy : (tb : Table) → Fin (tcTables nBuf tb) → BufTy
  | .hbm, ⟨0, _⟩ => ⟨S32x8192x256, .f32⟩
  | .hbm, ⟨1, _⟩ => ⟨S512x1024, .f32⟩
  | .hbm, ⟨2, _⟩ => ⟨S512, .f32⟩
  | .hbm, ⟨3, _⟩ => ⟨S1024x512, .f32⟩
  | .hbm, ⟨4, _⟩ => ⟨S1x512, .f32⟩
  | .hbm, ⟨5, _⟩ => ⟨S32x512, .f32⟩
  | .local _ .vmem, ⟨0, _⟩ => ⟨S8x1024x256, .f32⟩
  | .local _ .vmem, ⟨1, _⟩ => ⟨S8x1024x256, .f32⟩
  | .local _ .vmem, ⟨2, _⟩ => ⟨S1024x512, .f32⟩
  | .local _ .vmem, ⟨3, _⟩ => ⟨S1x512, .f32⟩
  | .local _ .vmem, ⟨4, _⟩ => ⟨S8x512, .f32⟩
  | .local _ .vmem, ⟨5, _⟩ => ⟨S8x512, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | _, _ => ⟨S32x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_22 : BitVec 32 := 0#32
  let v31 : BitVec 1 := Scalar.cmpi .ne v30 c0_i32_22
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S512x1024_S1024x512_1_0 : S512x1024.Transposes [1, 0] S1024x512
  shapeCasts_S512_S1x512 : S512.ShapeCasts S1x512
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x1024x256_S8x1024x256_0_0_0 : ∀ a, (![0, 0, 0] : Fin 3 → Nat) a + S8x1024x256.size a ≤ S8x1024x256.size a
  h_S8x1024x256 : 0 < S8x1024x256.numel
  reduces_S8x1024x256_S8x256 : S8x1024x256.Reduces [1] S8x256
  concatenates_S8x256_S8x256_S8x256_S8x256_S8x1024_d1 : Shape.Concatenates [S8x256, S8x256, S8x256, S8x256] S8x1024 1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S8x512 : S1x512.Broadcasts S8x512
  inb_S8x512_S8x512_0_0 : ∀ a, (![0, 0] : Fin 2 → Nat) a + S8x512.size a ≤ S8x512.size a
  h_S8x512 : 0 < S8x512.numel
  dot_S8x1024_S1024x512_S8x512_1_0_0_1_n_n_wf : DotDims.WF S8x1024 S1024x512 S8x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x256.size a ≤ S32x8192x256.size a
  hwx0_0 : ∀ i : grid0.Coords, EltTy.bits .f32 = 32 ∨ (Rect.block (s := S32x8192x256) S8x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S32x512.size a
  hwx0_3 : ∀ i : grid0.Coords, EltTy.bits .f32 = 32 ∨ (Rect.block (s := S32x512) S8x512.size (cc0_transform_3 i) (hinb0_3 i)).WholeWords (EltTy.packing .f32)

variable [Facts₀]

def dot_S8x1024_S1024x512_S8x512_1_0_0_1_n_n : DotDims S8x1024 S1024x512 S8x512 where
  lhsContracting := [1]
  rhsContracting := [0]
  lhsNonContracting := [0]
  rhsNonContracting := [1]
  lhsBatch := []
  rhsBatch := []
  wf := dot_S8x1024_S1024x512_S8x512_1_0_0_1_n_n_wf

abbrev win0_0 : Pipeline.Window sig grid0 :=
  Pipeline.Window.ofSpec (Memref.whole main_arg0) S8x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x8192x256 : Shape := ⟨3, ![32, 8192, 256]⟩
abbrev S512x1024 : Shape := ⟨2, ![512, 1024]⟩
abbrev S512 : Shape := ⟨1, ![512]⟩
abbrev S_ : Shape := ⟨0, ![]⟩
abbrev S32x256 : Shape := ⟨2, ![32, 256]⟩
abbrev S32x1x256 : Shape := ⟨3, ![32, 1, 256]⟩
abbrev S32x1024 : Shape := ⟨2, ![32, 1024]⟩
abbrev S1024x512 : Shape := ⟨2, ![1024, 512]⟩
abbrev S32x512 : Shape := ⟨2, ![32, 512]⟩
abbrev S1x512 : Shape := ⟨2, ![1, 512]⟩

abbrev nBuf : Space → Nat
  | .hbm => 42
  | .vmem => 0
  | .smem => 0
  | _ => 0

abbrev bufTy : (tb : Table) → Fin (tcTables nBuf tb) → BufTy
  | .hbm, ⟨0, _⟩ => ⟨S32x8192x256, .f32⟩
  | .hbm, ⟨1, _⟩ => ⟨S512x1024, .f32⟩
  | .hbm, ⟨2, _⟩ => ⟨S512, .f32⟩
  | .hbm, ⟨3, _⟩ => ⟨S_, .f32⟩
  | .hbm, ⟨4, _⟩ => ⟨S32x256, .f32⟩
  | .hbm, ⟨5, _⟩ => ⟨S_, .f32⟩
  | .hbm, ⟨6, _⟩ => ⟨S32x256, .f32⟩
  | .hbm, ⟨7, _⟩ => ⟨S32x256, .f32⟩
  | .hbm, ⟨8, _⟩ => ⟨S_, .f32⟩
  | .hbm, ⟨9, _⟩ => ⟨S32x256, .f32⟩
  | .hbm, ⟨10, _⟩ => ⟨S_, .f32⟩
  | .hbm, ⟨11, _⟩ => ⟨S32x256, .f32⟩
  | .hbm, ⟨12, _⟩ => ⟨S_, .i32⟩
  | .hbm, ⟨13, _⟩ => ⟨S_, .f32⟩
  | .hbm, ⟨14, _⟩ => ⟨S32x256, .f32⟩
  | .hbm, ⟨15, _⟩ => ⟨S32x1x256, .f32⟩
  | .hbm, ⟨16, _⟩ => ⟨S_, .f32⟩
  | .hbm, ⟨17, _⟩ => ⟨S32x1x256, .f32⟩
  | .hbm, ⟨18, _⟩ => ⟨S32x1x256, .f32⟩
  | .hbm, ⟨19, _⟩ => ⟨S32x8192x256, .f32⟩
  | .hbm, ⟨20, _⟩ => ⟨S32x8192x256, .f32⟩
  | .hbm, ⟨21, _⟩ => ⟨S32x8192x256, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S32x256, .f32⟩
  | .hbm, ⟨27, _⟩ => ⟨S32x256, .f32⟩
  | .hbm, ⟨28, _⟩ => ⟨S32x256, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S32x256, .f32⟩
  | .hbm, ⟨34, _⟩ => ⟨S32x256, .f32⟩
  | .hbm, ⟨35, _⟩ => ⟨S32x256, .f32⟩
  | .hbm, ⟨36, _⟩ => ⟨S32x1024, .f32⟩
  | .hbm, ⟨37, _⟩ => ⟨S1024x512, .f32⟩
  | .hbm, ⟨38, _⟩ => ⟨S32x512, .f32⟩
  | .hbm, ⟨39, _⟩ => ⟨S1x512, .f32⟩
  | .hbm, ⟨40, _⟩ => ⟨S32x512, .f32⟩
  | .hbm, ⟨41, _⟩ => ⟨S32x512, .f32⟩
  | _, _ => ⟨S32x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_c : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_cst_0 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_cst_1 : Ref sig .tc := ⟨.hbm, 23, rfl⟩
abbrev main_call0_call0_v8 : Ref sig .tc := ⟨.hbm, 24, rfl⟩
abbrev main_call0_call0_cst_2 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_call0_cst_3 : Ref sig .tc := ⟨.hbm, 29, rfl⟩
abbrev main_call0_call0_v12 : Ref sig .tc := ⟨.hbm, 30, rfl⟩
abbrev main_call0_call0_cst_4 : Ref sig .tc := ⟨.hbm, 31, rfl⟩
abbrev main_call0_call0_call0_v0 : Ref sig .tc := ⟨.hbm, 32, rfl⟩
abbrev main_call0_call0_call0_v1 : Ref sig .tc := ⟨.hbm, 33, rfl⟩
abbrev main_call0_v0 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩

abbrev nD : Nat := 1
abbrev τ : Topo := Topo.v7x

variable {F : FTy → Type} [FloatOps F]

class Facts₀ : Prop where
  reducesTo_S32x8192x256_S32x256_d1 : S32x8192x256.ReducesTo [1] S32x256
  h_S_ : 0 < S_.numel
  bcast_S_S32x256 : S_.BroadcastsInDim S32x256 (![] : Fin 0 → Fin S32x256.rank)
  bcast_S32x256_S32x1x256_0_2 : S32x256.BroadcastsInDim S32x1x256 (![0, 2] : Fin 2 → Fin S32x1x256.rank)
  bcast_S_S32x1x256 : S_.BroadcastsInDim S32x1x256 (![] : Fin 0 → Fin S32x1x256.rank)
  bcast_S32x1x256_S32x8192x256_0_1_2 : S32x1x256.BroadcastsInDim S32x8192x256 (![0, 1, 2] : Fin 3 → Fin S32x8192x256.rank)
  concatenates_S32x256_S32x256_S32x256_S32x256_S32x1024_d1 : Shape.Concatenates [S32x256, S32x256, S32x256, S32x256] S32x1024 1
  transposes_S512x1024_S1024x512_1_0 : S512x1024.Transposes [1, 0] S1024x512
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  dot_S32x1024_S1024x512_S32x512_1_0_0_1_n_n_wf : DotDims.WF S32x1024 S1024x512 S32x512 [1] [0] [0] [1] [] []

variable [Facts₀]

def dot_S32x1024_S1024x512_S32x512_1_0_0_1_n_n : DotDims S32x1024 S1024x512 S32x512 where
  lhsContracting := [1]
  rhsContracting := [0]
  lhsNonContracting := [0]
  rhsNonContracting := [1]
  lhsBatch := []
  rhsBatch := []
  wf := dot_S32x1024_S1024x512_S32x512_1_0_0_1_n_n_wf

class Facts : Prop extends Facts₀ where

variable [Facts]
-- ==== Proof.KernelPieces.lean ====
/-
  What one grid point leaves behind, read back as values. The body keeps four [8, 256] accumulators across the
  eight node tiles of a batch group: the running sum, the running sum of squares, the running minimum and the running
  maximum over the node axis. At a group's first tile it first resets them (to 0, 0, +∞, -∞) and then folds the tile in;
  at the other tiles it folds the tile into what the tile before left; at the last tile it also stores the output block,
  computed from the four accumulators as just updated. Each lemma says that what a case leaves in one buffer is the
  corresponding payload of the input block and of the accumulators it started from.
-/
import proofs.«103313_j35631048688006_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a group: scratch 0 is reset, then the tile is folded in — the running sum of the tile alone. -/
theorem first_0 (c : Dev nD) (i : grid0.Coords) (a2 : Memref sig .tc .vmem S8x1024x256 .f32) (h2 : a2.IsWhole) (a3 : Memref sig .tc .vmem S1024x512 .f32) (h3 : a3.IsWhole) (a4 : Memref sig .tc .vmem S1x512 .f32) (h4 : a4.IsWhole) (a5 : Memref sig .tc .vmem S8x512 .f32) (h5 : a5.IsWhole) (a6 : Memref sig .tc .vmem S8x256 .f32) (h6 : a6.IsWhole) (a7 : Memref sig .tc .vmem S8x256 .f32) (h7 : a7.IsWhole) (a8 : Memref sig .tc .vmem S8x256 .f32) (h8 : a8.IsWhole) (a9 : Memref sig .tc .vmem S8x256 .f32) (h9 : a9.IsWhole) (hc0 : cond0_0 i) (hc1 : ¬cond0_1 i) (x0 : Vec F S8x1024x256 .f32) (x1 : Vec F S1024x512 .f32) (x2 : Vec F S1x512 .f32) :
    sout0_A_0 c i a2 h2 a3 h3 a4 h4 a5 h5 a6 h6 a7 h7 a8 h8 a9 h9 hc0 hc1 x0 x1 x2 = k0_pay6 x0 (k0_pay2 (F := F)) := by
  unfold sout0_A_0
  rw [View.read_writes_eq_canon _ _ _ (scover0_A_0 c i a2 h2 a3 h3 a4 h4 a5 h5 a6 h6 a7 h7 a8 h8 a9 h9 hc0 hc1 x0 x1 x2)]
  unfold kernelRun0_A
  dsimp only
  sl_unfold_words
  rw [View.canon_cons_unit_zero (S := S8x256) hz2, View.readCov_unit_zero (S := S8x256) _ hz2]
  simp only [View.readAt_eq_ld, h2.read_unread, View.ld_unit_zero (S := S8x1024x256) hz3]

/-- A middle tile: the running sum so far, with the tile folded in. -/
theorem mid_0 (c : Dev nD) (i : grid0.Coords) (a2 : Memref sig .tc .vmem S8x1024x256 .f32) (h2 : a2.IsWhole) (a3 : Memref sig .tc .vmem S1024x512 .f32) (h3 : a3.IsWhole) (a4 : Memref sig .tc .vmem S1x512 .f32) (h4 : a4.IsWhole) (a5 : Memref sig .tc .vmem S8x512 .f32) (h5 : a5.IsWhole) (a6 : Memref sig .tc .vmem S8x256 .f32) (h6 : a6.IsWhole) (a7 : Memref sig .tc .vmem S8x256 .f32) (h7 : a7.IsWhole) (a8 : Memref sig .tc .vmem S8x256 .f32) (h8 : a8.IsWhole) (a9 : Memref sig .tc .vmem S8x256 .f32) (h9 : a9.IsWhole) (hc0 : ¬cond0_0 i) (hc1 : ¬cond0_1 i) (x0 : Vec F S8x1024x256 .f32) (x1 : Vec F S1024x512 .f32) (x2 : Vec F S1x512 .f32) (xs0 xs1 xs2 xs3 : Vec F S8x256 .f32) :
    sout0_B_0 c i a2 h2 a3 h3 a4 h4 a5 h5 a6 h6 a7 h7 a8 h8 a9 h9 hc0 hc1 x0 x1 x2 xs0 xs1 xs2 xs3 = k0_pay6 x0 xs0 := by
  unfold sout0_B_0
  rw [View.read_writes_eq_canon _ _ _ (scover0_B_0 c i a2 h2 a3 h3 a4 h4 a5 h5 a6 h6 a7 h7 a8 h8 a9 h9 hc0 hc1 x0 x1 x2 xs0 xs1 xs2 xs3)]
  unfold kernelRun0_B
  dsimp only
  sl_unfold_words
  rw [View.canon_unit_zero hz2]
  simp only [View.readAt_eq_ld, h2.read_unread, h6.read_unread, View.ld_unit_zero (S := S8x1024x256) hz3, View.ld_unit_zero (S := S8x256) hz2]

/-- The last tile: the same fold. -/
theorem last_0 (c : Dev nD) (i : grid0.Coords) (a2 : Memref sig .tc .vmem S8x1024x256 .f32) (h2 : a2.IsWhole) (a3 : Memref sig .tc .vmem S1024x512 .f32) (h3 : a3.IsWhole) (a4 : Memref sig .tc .vmem S1x512 .f32) (h4 : a4.IsWhole) (a5 : Memref sig .tc .vmem S8x512 .f32) (h5 : a5.IsWhole) (a6 : Memref sig .tc .vmem S8x256 .f32) (h6 : a6.IsWhole) (a7 : Memref sig .tc .vmem S8x256 .f32) (h7 : a7.IsWhole) (a8 : Memref sig .tc .vmem S8x256 .f32) (h8 : a8.IsWhole) (a9 : Memref sig .tc .vmem S8x256 .f32) (h9 : a9.IsWhole) (hc0 : ¬cond0_0 i) (hc1 : cond0_1 i) (x0 : Vec F S8x1024x256 .f32) (x1 : Vec F S1024x512 .f32) (x2 : Vec F S1x512 .f32) (xs0 xs1 xs2 xs3 : Vec F S8x256 .f32) :
    sout0_C_0 c i a2 h2 a3 h3 a4 h4 a5 h5 a6 h6 a7 h7 a8 h8 a9 h9 hc0 hc1 x0 x1 x2 xs0 xs1 xs2 xs3 = k0_pay6 x0 xs0 := by
  unfold sout0_C_0
  rw [View.read_writes_eq_canon _ _ _ (scover0_C_0 c i a2 h2 a3 h3 a4 h4 a5 h5 a6 h6 a7 h7 a8 h8 a9 h9 hc0 hc1 x0 x1 x2 xs0 xs1 xs2 xs3)]
  unfold kernelRun0_C
  dsimp only
  sl_unfold_words
  rw [View.canon_unit_zero hz2]
  simp only [View.readAt_eq_ld, h2.read_unread, h6.read_unread, View.ld_unit_zero (S := S8x1024x256) hz3, View.ld_unit_zero (S := S8x256) hz2]

/-- First tile of a group: scratch 1 is reset, then the tile is folded in — the running sum of squares of the tile alone. -/
theorem first_1 (c : Dev nD) (i : grid0.Coords) (a2 : Memref sig .tc .vmem S8x1024x256 .f32) (h2 : a2.IsWhole) (a3 : Memref sig .tc .vmem S1024x512 .f32) (h3 : a3.IsWhole) (a4 : Memref sig .tc .vmem S1x512 .f32) (h4 : a4.IsWhole) (a5 : Memref sig .tc .vmem S8x512 .f32) (h5 : a5.IsWhole) (a6 : Memref sig .tc .vmem S8x256 .f32) (h6 : a6.IsWhole) (a7 : Memref sig .tc .vmem S8x256 .f32) (h7 : a7.IsWhole) (a8 : Memref sig .tc .vmem S8x256 .f32) (h8 : a8.IsWhole) (a9 : Memref sig .tc .vmem S8x256 .f32) (h9 : a9.IsWhole) (hc0 : cond0_0 i) (hc1 : ¬cond0_1 i) (x0 : Vec F S8x1024x256 .f32) (x1 : Vec F S1024x512 .f32) (x2 : Vec F S1x512 .f32) :
    sout0_A_1 c i a2 h2 a3 h3 a4 h4 a5 h5 a6 h6 a7 h7 a8 h8 a9 h9 hc0 hc1 x0 x1 x2 = k0_pay7 x0 (k0_pay3 (F := F)) := by
  unfold sout0_A_1
  rw [View.read_writes_eq_canon _ _ _ (scover0_A_1 c i a2 h2 a3 h3 a4 h4 a5 h5 a6 h6 a7 h7 a8 h8 a9 h9 hc0 hc1 x0 x1 x2)]
  unfold kernelRun0_A
  dsimp only
  sl_unfold_words
  rw [View.canon_cons_unit_zero (S := S8x256) hz2, View.readCov_unit_zero (S := S8x256) _ hz2]
  simp only [View.readAt_eq_ld, h2.read_unread, View.ld_unit_zero (S := S8x1024x256) hz3]

/-- A middle tile: the running sum of squares so far, with the tile folded in. -/
theorem mid_1 (c : Dev nD) (i : grid0.Coords) (a2 : Memref sig .tc .vmem S8x1024x256 .f32) (h2 : a2.IsWhole) (a3 : Memref sig .tc .vmem S1024x512 .f32) (h3 : a3.IsWhole) (a4 : Memref sig .tc .vmem S1x512 .f32) (h4 : a4.IsWhole) (a5 : Memref sig .tc .vmem S8x512 .f32) (h5 : a5.IsWhole) (a6 : Memref sig .tc .vmem S8x256 .f32) (h6 : a6.IsWhole) (a7 : Memref sig .tc .vmem S8x256 .f32) (h7 : a7.IsWhole) (a8 : Memref sig .tc .vmem S8x256 .f32) (h8 : a8.IsWhole) (a9 : Memref sig .tc .vmem S8x256 .f32) (h9 : a9.IsWhole) (hc0 : ¬cond0_0 i) (hc1 : ¬cond0_1 i) (x0 : Vec F S8x1024x256 .f32) (x1 : Vec F S1024x512 .f32) (x2 : Vec F S1x512 .f32) (xs0 xs1 xs2 xs3 : Vec F S8x256 .f32) :
    sout0_B_1 c i a2 h2 a3 h3 a4 h4 a5 h5 a6 h6 a7 h7 a8 h8 a9 h9 hc0 hc1 x0 x1 x2 xs0 xs1 xs2 xs3 = k0_pay7 x0 xs1 := by
  unfold sout0_B_1
  rw [View.read_writes_eq_canon _ _ _ (scover0_B_1 c i a2 h2 a3 h3 a4 h4 a5 h5 a6 h6 a7 h7 a8 h8 a9 h9 hc0 hc1 x0 x1 x2 xs0 xs1 xs2 xs3)]
  unfold kernelRun0_B
  dsimp only
  sl_unfold_words
  rw [View.canon_unit_zero hz2]
  simp only [View.readAt_eq_ld, h2.read_unread, h7.read_unread, View.ld_unit_zero (S := S8x1024x256) hz3, View.ld_unit_zero (S := S8x256) hz2]

/-- The last tile: the same fold. -/
theorem last_1 (c : Dev nD) (i : grid0.Coords) (a2 : Memref sig .tc .vmem S8x1024x256 .f32) (h2 : a2.IsWhole) (a3 : Memref sig .tc .vmem S1024x512 .f32) (h3 : a3.IsWhole) (a4 : Memref sig .tc .vmem S1x512 .f32) (h4 : a4.IsWhole) (a5 : Memref sig .tc .vmem S8x512 .f32) (h5 : a5.IsWhole) (a6 : Memref sig .tc .vmem S8x256 .f32) (h6 : a6.IsWhole) (a7 : Memref sig .tc .vmem S8x256 .f32) (h7 : a7.IsWhole) (a8 : Memref sig .tc .vmem S8x256 .f32) (h8 : a8.IsWhole) (a9 : Memref sig .tc .vmem S8x256 .f32) (h9 : a9.IsWhole) (hc0 : ¬cond0_0 i) (hc1 : cond0_1 i) (x0 : Vec F S8x1024x256 .f32) (x1 : Vec F S1024x512 .f32) (x2 : Vec F S1x512 .f32) (xs0 xs1 xs2 xs3 : Vec F S8x256 .f32) :
    sout0_C_1 c i a2 h2 a3 h3 a4 h4 a5 h5 a6 h6 a7 h7 a8 h8 a9 h9 hc0 hc1 x0 x1 x2 xs0 xs1 xs2 xs3 = k0_pay7 x0 xs1 := by
  unfold sout0_C_1
  rw [View.read_writes_eq_canon _ _ _ (scover0_C_1 c i a2 h2 a3 h3 a4 h4 a5 h5 a6 h6 a7 h7 a8 h8 a9 h9 hc0 hc1 x0 x1 x2 xs0 xs1 xs2 xs3)]
  unfold kernelRun0_C
  dsimp only
  sl_unfold_words
  rw [View.canon_unit_zero hz2]
  simp only [View.readAt_eq_ld, h2.read_unread, h7.read_unread, View.ld_unit_zero (S := S8x1024x256) hz3, View.ld_unit_zero (S := S8x256) hz2]

/-- First tile of a group: scratch 2 is reset, then the tile is folded in — the running minimum of the tile alone. -/
theorem first_2 (c : Dev nD) (i : grid0.Coords) (a2 : Memref sig .tc .vmem S8x1024x256 .f32) (h2 : a2.IsWhole) (a3 : Memref sig .tc .vmem S1024x512 .f32) (h3 : a3.IsWhole) (a4 : Memref sig .tc .vmem S1x512 .f32) (h4 : a4.IsWhole) (a5 : Memref sig .tc .vmem S8x512 .f32) (h5 : a5.IsWhole) (a6 : Memref sig .tc .vmem S8x256 .f32) (h6 : a6.IsWhole) (a7 : Memref sig .tc .vmem S8x256 .f32) (h7 : a7.IsWhole) (a8 : Memref sig .tc .vmem S8x256 .f32) (h8 : a8.IsWhole) (a9 : Memref sig .tc .vmem S8x256 .f32) (h9 : a9.IsWhole) (hc0 : cond0_0 i) (hc1 : ¬cond0_1 i) (x0 : Vec F S8x1024x256 .f32) (x1 : Vec F S1024x512 .f32) (x2 : Vec F S1x512 .f32) :
    sout0_A_2 c i a2 h2 a3 h3 a4 h4 a5 h5 a6 h6 a7 h7 a8 h8 a9 h9 hc0 hc1 x0 x1 x2 = k0_pay8 x0 (k0_pay4 (F := F)) := by
  unfold sout0_A_2
  rw [View.read_writes_eq_canon _ _ _ (scover0_A_2 c i a2 h2 a3 h3 a4 h4 a5 h5 a6 h6 a7 h7 a8 h8 a9 h9 hc0 hc1 x0 x1 x2)]
  unfold kernelRun0_A
  dsimp only
  sl_unfold_words
  rw [View.canon_cons_unit_zero (S := S8x256) hz2, View.readCov_unit_zero (S := S8x256) _ hz2]
  simp only [View.readAt_eq_ld, h2.read_unread, View.ld_unit_zero (S := S8x1024x256) hz3]

/-- A middle tile: the running minimum so far, with the tile folded in. -/
theorem mid_2 (c : Dev nD) (i : grid0.Coords) (a2 : Memref sig .tc .vmem S8x1024x256 .f32) (h2 : a2.IsWhole) (a3 : Memref sig .tc .vmem S1024x512 .f32) (h3 : a3.IsWhole) (a4 : Memref sig .tc .vmem S1x512 .f32) (h4 : a4.IsWhole) (a5 : Memref sig .tc .vmem S8x512 .f32) (h5 : a5.IsWhole) (a6 : Memref sig .tc .vmem S8x256 .f32) (h6 : a6.IsWhole) (a7 : Memref sig .tc .vmem S8x256 .f32) (h7 : a7.IsWhole) (a8 : Memref sig .tc .vmem S8x256 .f32) (h8 : a8.IsWhole) (a9 : Memref sig .tc .vmem S8x256 .f32) (h9 : a9.IsWhole) (hc0 : ¬cond0_0 i) (hc1 : ¬cond0_1 i) (x0 : Vec F S8x1024x256 .f32) (x1 : Vec F S1024x512 .f32) (x2 : Vec F S1x512 .f32) (xs0 xs1 xs2 xs3 : Vec F S8x256 .f32) :
    sout0_B_2 c i a2 h2 a3 h3 a4 h4 a5 h5 a6 h6 a7 h7 a8 h8 a9 h9 hc0 hc1 x0 x1 x2 xs0 xs1 xs2 xs3 = k0_pay8 x0 xs2 := by
  unfold sout0_B_2
  rw [View.read_writes_eq_canon _ _ _ (scover0_B_2 c i a2 h2 a3 h3 a4 h4 a5 h5 a6 h6 a7 h7 a8 h8 a9 h9 hc0 hc1 x0 x1 x2 xs0 xs1 xs2 xs3)]
  unfold kernelRun0_B
  dsimp only
  sl_unfold_words
  rw [View.canon_unit_zero hz2]
  simp only [View.readAt_eq_ld, h2.read_unread, h8.read_unread, View.ld_unit_zero (S := S8x1024x256) hz3, View.ld_unit_zero (S := S8x256) hz2]

/-- The last tile: the same fold. -/
theorem last_2 (c : Dev nD) (i : grid0.Coords) (a2 : Memref sig .tc .vmem S8x1024x256 .f32) (h2 : a2.IsWhole) (a3 : Memref sig .tc .vmem S1024x512 .f32) (h3 : a3.IsWhole) (a4 : Memref sig .tc .vmem S1x512 .f32) (h4 : a4.IsWhole) (a5 : Memref sig .tc .vmem S8x512 .f32) (h5 : a5.IsWhole) (a6 : Memref sig .tc .vmem S8x256 .f32) (h6 : a6.IsWhole) (a7 : Memref sig .tc .vmem S8x256 .f32) (h7 : a7.IsWhole) (a8 : Memref sig .tc .vmem S8x256 .f32) (h8 : a8.IsWhole) (a9 : Memref sig .tc .vmem S8x256 .f32) (h9 : a9.IsWhole) (hc0 : ¬cond0_0 i) (hc1 : cond0_1 i) (x0 : Vec F S8x1024x256 .f32) (x1 : Vec F S1024x512 .f32) (x2 : Vec F S1x512 .f32) (xs0 xs1 xs2 xs3 : Vec F S8x256 .f32) :
    sout0_C_2 c i a2 h2 a3 h3 a4 h4 a5 h5 a6 h6 a7 h7 a8 h8 a9 h9 hc0 hc1 x0 x1 x2 xs0 xs1 xs2 xs3 = k0_pay8 x0 xs2 := by
  unfold sout0_C_2
  rw [View.read_writes_eq_canon _ _ _ (scover0_C_2 c i a2 h2 a3 h3 a4 h4 a5 h5 a6 h6 a7 h7 a8 h8 a9 h9 hc0 hc1 x0 x1 x2 xs0 xs1 xs2 xs3)]
  unfold kernelRun0_C
  dsimp only
  sl_unfold_words
  rw [View.canon_unit_zero hz2]
  simp only [View.readAt_eq_ld, h2.read_unread, h8.read_unread, View.ld_unit_zero (S := S8x1024x256) hz3, View.ld_unit_zero (S := S8x256) hz2]

/-- First tile of a group: scratch 3 is reset, then the tile is folded in — the running maximum of the tile alone. -/
theorem first_3 (c : Dev nD) (i : grid0.Coords) (a2 : Memref sig .tc .vmem S8x1024x256 .f32) (h2 : a2.IsWhole) (a3 : Memref sig .tc .vmem S1024x512 .f32) (h3 : a3.IsWhole) (a4 : Memref sig .tc .vmem S1x512 .f32) (h4 : a4.IsWhole) (a5 : Memref sig .tc .vmem S8x512 .f32) (h5 : a5.IsWhole) (a6 : Memref sig .tc .vmem S8x256 .f32) (h6 : a6.IsWhole) (a7 : Memref sig .tc .vmem S8x256 .f32) (h7 : a7.IsWhole) (a8 : Memref sig .tc .vmem S8x256 .f32) (h8 : a8.IsWhole) (a9 : Memref sig .tc .vmem S8x256 .f32) (h9 : a9.IsWhole) (hc0 : cond0_0 i) (hc1 : ¬cond0_1 i) (x0 : Vec F S8x1024x256 .f32) (x1 : Vec F S1024x512 .f32) (x2 : Vec F S1x512 .f32) :
    sout0_A_3 c i a2 h2 a3 h3 a4 h4 a5 h5 a6 h6 a7 h7 a8 h8 a9 h9 hc0 hc1 x0 x1 x2 = k0_pay9 x0 (k0_pay5 (F := F)) := by
  unfold sout0_A_3
  rw [View.read_writes_eq_canon _ _ _ (scover0_A_3 c i a2 h2 a3 h3 a4 h4 a5 h5 a6 h6 a7 h7 a8 h8 a9 h9 hc0 hc1 x0 x1 x2)]
  unfold kernelRun0_A
  dsimp only
  sl_unfold_words
  rw [View.canon_cons_unit_zero (S := S8x256) hz2, View.readCov_unit_zero (S := S8x256) _ hz2]
  simp only [View.readAt_eq_ld, h2.read_unread, View.ld_unit_zero (S := S8x1024x256) hz3]

/-- A middle tile: the running maximum so far, with the tile folded in. -/
theorem mid_3 (c : Dev nD) (i : grid0.Coords) (a2 : Memref sig .tc .vmem S8x1024x256 .f32) (h2 : a2.IsWhole) (a3 : Memref sig .tc .vmem S1024x512 .f32) (h3 : a3.IsWhole) (a4 : Memref sig .tc .vmem S1x512 .f32) (h4 : a4.IsWhole) (a5 : Memref sig .tc .vmem S8x512 .f32) (h5 : a5.IsWhole) (a6 : Memref sig .tc .vmem S8x256 .f32) (h6 : a6.IsWhole) (a7 : Memref sig .tc .vmem S8x256 .f32) (h7 : a7.IsWhole) (a8 : Memref sig .tc .vmem S8x256 .f32) (h8 : a8.IsWhole) (a9 : Memref sig .tc .vmem S8x256 .f32) (h9 : a9.IsWhole) (hc0 : ¬cond0_0 i) (hc1 : ¬cond0_1 i) (x0 : Vec F S8x1024x256 .f32) (x1 : Vec F S1024x512 .f32) (x2 : Vec F S1x512 .f32) (xs0 xs1 xs2 xs3 : Vec F S8x256 .f32) :
    sout0_B_3 c i a2 h2 a3 h3 a4 h4 a5 h5 a6 h6 a7 h7 a8 h8 a9 h9 hc0 hc1 x0 x1 x2 xs0 xs1 xs2 xs3 = k0_pay9 x0 xs3 := by
  unfold sout0_B_3
  rw [View.read_writes_eq_canon _ _ _ (scover0_B_3 c i a2 h2 a3 h3 a4 h4 a5 h5 a6 h6 a7 h7 a8 h8 a9 h9 hc0 hc1 x0 x1 x2 xs0 xs1 xs2 xs3)]
  unfold kernelRun0_B
  dsimp only
  sl_unfold_words
  rw [View.canon_unit_zero hz2]
  simp only [View.readAt_eq_ld, h2.read_unread, h9.read_unread, View.ld_unit_zero (S := S8x1024x256) hz3, View.ld_unit_zero (S := S8x256) hz2]

/-- The last tile: the same fold. -/
theorem last_3 (c : Dev nD) (i : grid0.Coords) (a2 : Memref sig .tc .vmem S8x1024x256 .f32) (h2 : a2.IsWhole) (a3 : Memref sig .tc .vmem S1024x512 .f32) (h3 : a3.IsWhole) (a4 : Memref sig .tc .vmem S1x512 .f32) (h4 : a4.IsWhole) (a5 : Memref sig .tc .vmem S8x512 .f32) (h5 : a5.IsWhole) (a6 : Memref sig .tc .vmem S8x256 .f32) (h6 : a6.IsWhole) (a7 : Memref sig .tc .vmem S8x256 .f32) (h7 : a7.IsWhole) (a8 : Memref sig .tc .vmem S8x256 .f32) (h8 : a8.IsWhole) (a9 : Memref sig .tc .vmem S8x256 .f32) (h9 : a9.IsWhole) (hc0 : ¬cond0_0 i) (hc1 : cond0_1 i) (x0 : Vec F S8x1024x256 .f32) (x1 : Vec F S1024x512 .f32) (x2 : Vec F S1x512 .f32) (xs0 xs1 xs2 xs3 : Vec F S8x256 .f32) :
    sout0_C_3 c i a2 h2 a3 h3 a4 h4 a5 h5 a6 h6 a7 h7 a8 h8 a9 h9 hc0 hc1 x0 x1 x2 xs0 xs1 xs2 xs3 = k0_pay9 x0 xs3 := by
  unfold sout0_C_3
  rw [View.read_writes_eq_canon _ _ _ (scover0_C_3 c i a2 h2 a3 h3 a4 h4 a5 h5 a6 h6 a7 h7 a8 h8 a9 h9 hc0 hc1 x0 x1 x2 xs0 xs1 xs2 xs3)]
  unfold kernelRun0_C
  dsimp only
  sl_unfold_words
  rw [View.canon_unit_zero hz2]
  simp only [View.readAt_eq_ld, h2.read_unread, h9.read_unread, View.ld_unit_zero (S := S8x1024x256) hz3, View.ld_unit_zero (S := S8x256) hz2]

/-- The last tile's output block: the final payload over the four accumulators as the tile has just updated them,
    the weight block and the bias row. -/
theorem last_out (c : Dev nD) (i : grid0.Coords) (a2 : Memref sig .tc .vmem S8x1024x256 .f32) (h2 : a2.IsWhole) (a3 : Memref sig .tc .vmem S1024x512 .f32) (h3 : a3.IsWhole) (a4 : Memref sig .tc .vmem S1x512 .f32) (h4 : a4.IsWhole) (a5 : Memref sig .tc .vmem S8x512 .f32) (h5 : a5.IsWhole) (a6 : Memref sig .tc .vmem S8x256 .f32) (h6 : a6.IsWhole) (a7 : Memref sig .tc .vmem S8x256 .f32) (h7 : a7.IsWhole) (a8 : Memref sig .tc .vmem S8x256 .f32) (h8 : a8.IsWhole) (a9 : Memref sig .tc .vmem S8x256 .f32) (h9 : a9.IsWhole) (hc0 : ¬cond0_0 i) (hc1 : cond0_1 i) (x0 : Vec F S8x1024x256 .f32) (x1 : Vec F S1024x512 .f32) (x2 : Vec F S1x512 .f32) (xs0 xs1 xs2 xs3 : Vec F S8x256 .f32) :
    out0_C_3 c i a2 h2 a3 h3 a4 h4 a5 h5 a6 h6 a7 h7 a8 h8 a9 h9 hc0 hc1 x0 x1 x2 xs0 xs1 xs2 xs3
      = k0_pay1 (k0_pay6 x0 xs0) (k0_pay7 x0 xs1) (k0_pay8 x0 xs2) (k0_pay9 x0 xs3) x1 x2 := by
  unfold out0_C_3
  rw [View.read_writes_eq_canon _ _ _ (cover0_C_3 c i a2 h2 a3 h3 a4 h4 a5 h5 a6 h6 a7 h7 a8 h8 a9 h9 hc0 hc1 x0 x1 x2 xs0 xs1 xs2 xs3)]
  unfold kernelRun0_C
  dsimp only
  sl_unfold_words
  rw [View.canon_unit_zero hz2]
  simp only [View.readCov_unit_zero (S := S8x256) _ hz2, View.readAt_eq_ld, h2.read_unread, h3.read_unread, h4.read_unread,
    h6.read_unread, h7.read_unread, h8.read_unread, h9.read_unread, View.ld_unit_zero (S := S8x1024x256) hz3,
    View.ld_unit_zero (S := S8x256) hz2, View.ld_unit_zero (S := S1024x512) hz2, View.ld_unit_zero (S := S1x512) hz2]

end Cert.KernelIdeal.Pieces

end
-- ==== Proof.PoolSpec.lean ====
/-
  The function both programs compute, stated once over the three argument arrays, index by index, on the
  extended reals. For a batch row `p` and a channel `d` the node axis (8192 entries) is reduced four ways: the mean
  (the sum divided by 8192), the minimum, the maximum, and the unbiased standard deviation (the square root of the
  sum of squared deviations from the mean divided by 8191). The four [32, 256] tables are laid side by side into
  a [32, 1024] feature row, which is multiplied by the transposed weight and shifted by the bias:
  `out (p, q) = ∑ k, feat p k * W (q, k) + b q`.
  The float literals the programs spell are read here once as the reals they denote.
-/
import Idealize.ShloMosaic.PureOps.Ideal
import Idealize.ShloMosaic.Lib.ValueIdx

noncomputable section

namespace Cert.Pool

open Idealize.ShloMosaic Idealize.ShloMosaic.ValueIdx

abbrev SX : Shape := ⟨3, ![32, 8192, 256]⟩
abbrev SW : Shape := ⟨2, ![512, 1024]⟩
abbrev SB : Shape := ⟨1, ![512]⟩
abbrev SO : Shape := ⟨2, ![32, 512]⟩

/-! ## The literals -/

theorem ofBits_8192 : Ideal.ofBits .f32 0x46000000#32 = ((8192 : ℝ) : EReal) := by
  simp [Ideal.ofBits, Ideal.ieee, -EReal.coe_mul]; norm_num

theorem ofBits_8191 : Ideal.ofBits .f32 0x45FFF800#32 = ((8191 : ℝ) : EReal) := by
  simp [Ideal.ofBits, Ideal.ieee, -EReal.coe_mul]; norm_num

theorem ofBits_zero : Ideal.ofBits .f32 0x00000000#32 = 0 := by
  simp [Ideal.ofBits, Ideal.ieee]

theorem ofBits_top : Ideal.ofBits .f32 0x7F800000#32 = ⊤ := by
  simp [Ideal.ofBits, Ideal.ieee]

theorem ofBits_bot : Ideal.ofBits .f32 0xFF800000#32 = ⊥ := by
  simp [Ideal.ofBits, Ideal.ieee]

/-! ## The four reductions over the node axis -/

/-- The sum of column `(p, ·, d)`. -/
def colSum (X : SX.Idx → EReal) (p : Fin 32) (d : Fin 256) : EReal := ∑ n : Fin 8192, X (ix3 p n d)

/-- The minimum of column `(p, ·, d)` (from `+∞`). -/
def colMin (X : SX.Idx → EReal) (p : Fin 32) (d : Fin 256) : EReal :=
  (Finset.univ : Finset (Fin 8192)).fold min ⊤ (fun n => X (ix3 p n d))

/-- The maximum of column `(p, ·, d)` (from `-∞`). -/
def colMax (X : SX.Idx → EReal) (p : Fin 32) (d : Fin 256) : EReal :=
  (Finset.univ : Finset (Fin 8192)).fold max ⊥ (fun n => X (ix3 p n d))

/-- The mean of the column. -/
def mean (X : SX.Idx → EReal) (p : Fin 32) (d : Fin 256) : EReal := Ideal.div (colSum X p d) ((8192 : ℝ) : EReal)

/-- The unbiased variance: the squared deviations from the mean, summed, over 8191. -/
def var (X : SX.Idx → EReal) (p : Fin 32) (d : Fin 256) : EReal :=
  Ideal.div (∑ n : Fin 8192, (X (ix3 p n d) - mean X p d) * (X (ix3 p n d) - mean X p d)) ((8191 : ℝ) : EReal)

/-- The standard deviation. -/
def std (X : SX.Idx → EReal) (p : Fin 32) (d : Fin 256) : EReal := Ideal.sqrt (var X p d)

/-- The feature row: mean, minimum, maximum, standard deviation, 256 channels each, side by side. -/
def feat (X : SX.Idx → EReal) (p : Fin 32) (k : Fin 1024) : EReal :=
  if h0 : k.val < 256 then mean X p ⟨k.val, h0⟩
  else if h1 : k.val < 512 then colMin X p ⟨k.val - 256, by omega⟩
  else if h2 : k.val < 768 then colMax X p ⟨k.val - 512, by omega⟩
  else std X p ⟨k.val - 768, by have := k.isLt; omega⟩

/-- The result at row `p`, column `q`. -/
def outAt (X : SX.Idx → EReal) (W : SW.Idx → EReal) (b : SB.Idx → EReal) (p : Fin 32) (q : Fin 512) : EReal :=
  (∑ k : Fin 1024, feat X p k * W (ix2 q k)) + b (ix1 q)

/-- The result array. -/
def out (X : SX.Idx → EReal) (W : SW.Idx → EReal) (b : SB.Idx → EReal) : SO.Idx → EReal :=
  fun i => outAt X W b ⟨(i 0).val, idx2_lt0 i⟩ ⟨(i 1).val, idx2_lt1 i⟩

theorem out_ix2 (X : SX.Idx → EReal) (W : SW.Idx → EReal) (b : SB.Idx → EReal) (p : Fin 32) (q : Fin 512) :
    out X W b (ix2 p q) = outAt X W b p q := rfl

end Cert.Pool

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.KernelPayload.lean ====
/-
  The body's arithmetic read at one entry, on the extended reals. Over a tile `x` of 8 batch rows, 1024 nodes and 256
  channels the four folds are: the running sum plus the tile's column sum; the running sum of squares plus the
  column sum of the squares; the minimum of the running minimum and the column minimum; the maximum likewise. The
  resets are the constant tables 0, 0, +∞, -∞. The last tile's output block lays the mean, the minimum, the maximum
  and the clamped standard deviation side by side into a feature row and multiplies it into the weight block, plus
  the bias row.
-/
import proofs.«103313_j35631048688006_1_alg».proof.Proof.Gen.KernelIdeal.Skeleton
import proofs.«103313_j35631048688006_1_alg».proof.Proof.PoolSpec
import proofs.«103313_j35631048688006_1_alg».proof.Proof.LibMatmulPlain
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.Payload

open Cert.KernelIdeal Cert.KernelIdeal.Gen

/-! ## The resets -/

theorem reset_sum (j : S8x256.Idx) : k0_pay2 (F := Ideal) j = 0 := by
  unfold k0_pay2; rw [shapeCast_self]; exact Cert.Pool.ofBits_zero

theorem reset_sq (j : S8x256.Idx) : k0_pay3 (F := Ideal) j = 0 := by
  unfold k0_pay3; rw [shapeCast_self]; exact Cert.Pool.ofBits_zero

theorem reset_min (j : S8x256.Idx) : k0_pay4 (F := Ideal) j = ⊤ := by
  unfold k0_pay4; rw [shapeCast_self]; exact Cert.Pool.ofBits_top

theorem reset_max (j : S8x256.Idx) : k0_pay5 (F := Ideal) j = ⊥ := by
  unfold k0_pay5; rw [shapeCast_self]; exact Cert.Pool.ofBits_bot

/-! ## A tile's column reductions -/

/-- The index of the tile over a reduced entry `(b, d)` with node coordinate `r` is `(b, r, d)`. -/
theorem lift_eq (h : S8x1024x256.Reduces [1] S8x256) (b : Fin 8) (d : Fin 256) (r : Fin 1024) :
    h.lift (ix2 b d) r = ix3 b r d := by
  funext a
  match a with
  | ⟨0, _⟩ => rfl
  | ⟨1, _⟩ => rfl
  | ⟨2, _⟩ => rfl

/-- A tile's column sum at `(b, d)`. -/
theorem tile_sum (x : FVec Ideal S8x1024x256 .f32) (h : S8x1024x256.Reduces [1] S8x256) (hφ : FKind.Formats .f32)
    (hacc : (0x00000000#32 : BitVec 32) = FKind.add.neutral .f32 hφ) (b : Fin 8) (d : Fin 256) :
    multiReduction .add [1] S8x256 x 0x00000000#32 h hφ hacc (ix2 b d) = ∑ r : Fin 1024, x (ix3 b r d) := by
  refine (Ideal.multiReduction_add_single x 0x00000000#32 h hφ hacc (ix2 b d)).trans ?_
  exact Finset.sum_congr rfl fun r _ => congrArg x (lift_eq h b d r)

/-- A tile's column minimum at `(b, d)`, from `+∞`. -/
theorem tile_min (x : FVec Ideal S8x1024x256 .f32) (h : S8x1024x256.Reduces [1] S8x256) (hφ : FKind.Formats .f32)
    (hacc : (0x7F800000#32 : BitVec 32) = FKind.minimumf.neutral .f32 hφ) (b : Fin 8) (d : Fin 256) :
    multiReduction .minimumf [1] S8x256 x 0x7F800000#32 h hφ hacc (ix2 b d)
      = (Finset.univ : Finset (Fin 1024)).fold min ⊤ (fun r => x (ix3 b r d)) := by
  refine (multiReduction_minimumf_eq_fold x 0x7F800000#32 h hφ hacc (ix2 b d)).trans ?_
  refine (h.fold_filter_drop_single _ _ x (ix2 b d)).trans ?_
  have e : (x ∘ h.lift (ix2 b d)) = fun r : Fin 1024 => x (ix3 b r d) := funext fun r => congrArg x (lift_eq h b d r)
  rw [e]
  show (Finset.univ : Finset (Fin 1024)).fold min (Ideal.ofBits .f32 0x7F800000#32) _ = _
  rw [Cert.Pool.ofBits_top]

/-- A tile's column maximum at `(b, d)`, from `-∞`. -/
theorem tile_max (x : FVec Ideal S8x1024x256 .f32) (h : S8x1024x256.Reduces [1] S8x256) (hφ : FKind.Formats .f32)
    (hacc : (0xFF800000#32 : BitVec 32) = FKind.maximumf.neutral .f32 hφ) (b : Fin 8) (d : Fin 256) :
    multiReduction .maximumf [1] S8x256 x 0xFF800000#32 h hφ hacc (ix2 b d)
      = (Finset.univ : Finset (Fin 1024)).fold max ⊥ (fun r => x (ix3 b r d)) := by
  refine (Ideal.multiReduction_maximumf_single x 0xFF800000#32 h hφ hacc (ix2 b d)).trans ?_
  have e : (x ∘ h.lift (ix2 b d)) = fun r : Fin 1024 => x (ix3 b r d) := funext fun r => congrArg x (lift_eq h b d r)
  rw [e]
  show (Finset.univ : Finset (Fin 1024)).fold max (Ideal.ofBits .f32 0xFF800000#32) _ = _
  rw [Cert.Pool.ofBits_bot]

/-! ## The four folds at an entry -/

theorem fold_sum (x : Vec Ideal S8x1024x256 .f32) (acc : Vec Ideal S8x256 .f32) (b : Fin 8) (d : Fin 256) :
    k0_pay6 x acc (ix2 b d) = acc (ix2 b d) + ∑ r : Fin 1024, x (ix3 b r d) := by
  unfold k0_pay6; dsimp only; rw [shapeCast_self]
  exact congrArg (acc (ix2 b d) + ·) (tile_sum x _ _ _ b d)

theorem fold_sq (x : Vec Ideal S8x1024x256 .f32) (acc : Vec Ideal S8x256 .f32) (b : Fin 8) (d : Fin 256) :
    k0_pay7 x acc (ix2 b d) = acc (ix2 b d) + ∑ r : Fin 1024, x (ix3 b r d) * x (ix3 b r d) := by
  unfold k0_pay7; dsimp only; rw [shapeCast_self]
  exact congrArg (acc (ix2 b d) + ·) (tile_sum (mulf x x) _ _ _ b d)

theorem fold_min (x : Vec Ideal S8x1024x256 .f32) (acc : Vec Ideal S8x256 .f32) (b : Fin 8) (d : Fin 256) :
    k0_pay8 x acc (ix2 b d) = min (acc (ix2 b d)) ((Finset.univ : Finset (Fin 1024)).fold min ⊤ (fun r => x (ix3 b r d))) := by
  unfold k0_pay8; dsimp only; rw [shapeCast_self]
  exact congrArg (min (acc (ix2 b d))) (tile_min x _ _ _ b d)

theorem fold_max (x : Vec Ideal S8x1024x256 .f32) (acc : Vec Ideal S8x256 .f32) (b : Fin 8) (d : Fin 256) :
    k0_pay9 x acc (ix2 b d) = max (acc (ix2 b d)) ((Finset.univ : Finset (Fin 1024)).fold max ⊥ (fun r => x (ix3 b r d))) := by
  unfold k0_pay9; dsimp only; rw [shapeCast_self]
  exact congrArg (max (acc (ix2 b d))) (tile_max x _ _ _ b d)

end Cert.KernelIdeal.Payload

end
-- ==== Proof.KernelBlocks.lean ====
/-
  What the windows hold. The grid has 4 batch groups by 8 node tiles, walked row-major: point `t` is tile `t % 8` of
  group `t / 8`. The input block of `X` at point `t` is rows `8 (t / 8) .. 8 (t / 8) + 7`, nodes
  `1024 (t % 8) .. 1024 (t % 8) + 1023`, every channel. The weight window is the whole transposed weight at every point
  and the bias window the whole bias as one row; both arrays are written before the region by the host (a transpose
  and a reshape of the arguments), so an entry of either is an entry of an argument.
-/
import proofs.«103313_j35631048688006_1_alg».proof.Proof.Gen.KernelIdeal.Frame
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The printed index maps over the grid: the input block index is (group, tile, 0), the output's (group, 0), the
    weight's and the bias's (0, 0). -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 8 ∧ win0_3.index t (1 : Fin 2) = 0 :=
  (by decide +kernel : ∀ t : Fin grid0.N, _)

/-- The input block at point `t`, entry (b, r, d): the argument at row `8 (t / 8) + b`, node `1024 (t % 8) + r`. -/
theorem x_block (c : Dev nD) (t : Fin cfg0.N) (b : Fin 8) (r : Fin 1024) (d : Fin 256)
    (hp : 8 * (t.val / 8) + b.val < 32) (hn : 1024 * (t.val % 8) + r.val < 8192) :
    (iblk m c 0 t : Vec F S8x1024x256 .f32) (ix3 b r d)
      = m ((c : Thread nD τ).loc main_arg0) (ix3 ⟨8 * (t.val / 8) + b.val, hp⟩ ⟨1024 * (t.val % 8) + r.val, hn⟩ d) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 8 + 1 * b.val = 8 * (t.val / 8) + b.val; rw [(idx_facts t).1]; omega
  | ⟨1, _⟩ => show win0_0.index t 1 * 1024 + 1 * r.val = 1024 * (t.val % 8) + r.val; rw [(idx_facts t).2.1]; omega
  | ⟨2, _⟩ => show win0_0.index t 2 * 256 + 1 * d.val = d.val; rw [(idx_facts t).2.2.1]; omega

/-- The weight window's array is the argument transposed, … -/
theorem wt_array (c : Dev nD) :
    (V m c main_v0 : S1024x512.Idx → Elt F .f32)
      = transpose S1024x512 [1, 0] (m ((c : Thread nD τ).loc main_arg1)) Facts₀.transposes_S512x1024_S1024x512_1_0 := by
  dsimp only [V, hostOps0]; after_results; all_goals rfl

/-- … and the bias window's array the bias argument recast as one row. -/
theorem bias_array (c : Dev nD) :
    (V m c main_v1 : S1x512.Idx → Elt F .f32)
      = shapeCast S1x512 (m ((c : Thread nD τ).loc main_arg2)) Facts₀.shapeCasts_S512_S1x512 := by
  dsimp only [V, hostOps0]; after_results; all_goals rfl

/-- The weight block at any point, entry (k, q): the weight argument's entry (q, k). -/
theorem w_block (c : Dev nD) (t : Fin cfg0.N) (k : Fin 1024) (q : Fin 512) :
    (iblk m c 1 t : Vec F S1024x512 .f32) (ix2 k q) = m ((c : Thread nD τ).loc main_arg1) (ix2 q k) := by
  unfold iblk
  rw [View.read_apply]
  show V m c main_v0 _ = _
  rw [wt_array]
  refine (transpose_apply [1, 0] _ _ _ (ix2 q k) (fun a => ?_))
  match a with
  | ⟨0, _⟩ => show k.val = win0_1.index t 0 * 1024 + 1 * k.val; rw [(idx_facts t).2.2.2.1]; omega
  | ⟨1, _⟩ => show q.val = win0_1.index t 1 * 512 + 1 * q.val; rw [(idx_facts t).2.2.2.2.1]; omega

/-- The bias block at any point, entry (0, q): the bias argument's entry q. -/
theorem b_block (c : Dev nD) (t : Fin cfg0.N) (q : Fin 512) :
    (iblk m c 2 t : Vec F S1x512 .f32) (ix2 (0 : Fin 1) q) = m ((c : Thread nD τ).loc main_arg2) (ix1 q) := by
  unfold iblk
  rw [View.read_apply]
  show V m c main_v1 _ = _
  rw [bias_array]
  refine shapeCast_apply _ _ _ (ix1 q) ?_
  rw [Shape.rowMajor_val_one, Shape.rowMajor_val_two]
  show q.val = (win0_2.index t 0 * 1 + 1 * 0) * 512 + (win0_2.index t 1 * 512 + 1 * q.val)
  rw [(idx_facts t).2.2.2.2.2.1, (idx_facts t).2.2.2.2.2.2.1]; omega

end Cert.KernelIdeal.Blocks

end
-- ==== Proof.PoolTiles.lean ====
/-
  The node axis walked in tiles. The 8192 entries of a column are visited as 8 consecutive tiles of 1024; each
  tile is reduced by itself (a sum, a minimum, a maximum) and folded into a running value. After the last tile
  the running value is the reduction of the whole column.
  For the sum, the running value after tile j is the sum of the first 1024 (j + 1) entries: a sum over an initial
  segment of the naturals splits at 1024 (j + 1) into the segment before and the next tile.
  For the minimum, the running value after tile j is characterised among the extended reals by
  c ≤ (running value) ↔ c ≤ every one of the first 1024 (j + 1) entries: an index below 1024 (j + 2) is either
  below 1024 (j + 1) or of the form 1024 (j + 1) + r with r < 1024. Two extended reals with the same lower
  bounds are equal. The maximum is the mirror image, with upper bounds.
  The column of an array is read as a function of a natural number, zero past the end.
-/
import proofs.«103313_j35631048688006_1_alg».proof.Proof.PoolSpec

noncomputable section

namespace Cert.Pool

open Idealize.ShloMosaic Idealize.ShloMosaic.ValueIdx

/-! ## The sum -/

/-- The sum of tile `j`: entries `1024 j`, …, `1024 j + 1023`. -/
def tileSum (f : ℕ → EReal) (j : ℕ) : EReal := ∑ r : Fin 1024, f (1024 * j + r.val)

/-- The running sum after tile `j`, from zero. -/
def runSum (f : ℕ → EReal) : ℕ → EReal
  | 0 => 0 + tileSum f 0
  | j + 1 => runSum f j + tileSum f (j + 1)

theorem runSum_zero (f : ℕ → EReal) : runSum f 0 = 0 + tileSum f 0 := rfl
theorem runSum_succ (f : ℕ → EReal) (j : ℕ) : runSum f (j + 1) = runSum f j + tileSum f (j + 1) := rfl

/-- A tile's sum as a sum over the naturals below 1024. -/
theorem tileSum_range (f : ℕ → EReal) (j : ℕ) : tileSum f j = ∑ r ∈ Finset.range 1024, f (1024 * j + r) :=
  (Finset.sum_range (fun r => f (1024 * j + r))).symm

/-- The running sum after tile `j` is the sum of the first `1024 (j + 1)` entries. -/
theorem runSum_eq (f : ℕ → EReal) (j : ℕ) : runSum f j = ∑ n ∈ Finset.range (1024 * (j + 1)), f n := by
  induction j with
  | zero =>
    rw [runSum_zero, zero_add, tileSum_range]
    exact Finset.sum_congr rfl fun r _ => by rw [Nat.mul_zero, Nat.zero_add]
  | succ j ih =>
    rw [runSum_succ, ih, tileSum_range, ← Finset.sum_range_add]
    exact congrArg (fun k => ∑ n ∈ Finset.range k, f n) (by omega)

theorem runSum_last (f : ℕ → EReal) : runSum f 7 = ∑ n : Fin 8192, f n.val := by
  rw [runSum_eq, ← Finset.sum_range (fun n => f n)]

/-! ## The minimum -/

/-- The minimum of tile `j`, from `⊤`. -/
def tileMin (f : ℕ → EReal) (j : ℕ) : EReal :=
  (Finset.univ : Finset (Fin 1024)).fold min ⊤ (fun r => f (1024 * j + r.val))

/-- The running minimum after tile `j`, from `⊤`. -/
def runMin (f : ℕ → EReal) : ℕ → EReal
  | 0 => min ⊤ (tileMin f 0)
  | j + 1 => min (runMin f j) (tileMin f (j + 1))

theorem runMin_zero (f : ℕ → EReal) : runMin f 0 = min ⊤ (tileMin f 0) := rfl
theorem runMin_succ (f : ℕ → EReal) (j : ℕ) : runMin f (j + 1) = min (runMin f j) (tileMin f (j + 1)) := rfl

/-- The lower bounds of a minimum, from `⊤`, over the indices below `N` are the common lower bounds of the entries. -/
theorem le_fold_min_fin {N : ℕ} (g : ℕ → EReal) (c : EReal) :
    c ≤ (Finset.univ : Finset (Fin N)).fold min ⊤ (fun r => g r.val) ↔ ∀ r, r < N → c ≤ g r := by
  rw [Finset.le_fold_min]
  constructor
  · rintro ⟨-, h⟩ r hr
    exact h ⟨r, hr⟩ (Finset.mem_univ _)
  · intro h
    exact ⟨le_top, fun x _ => h x.val x.isLt⟩

theorem le_tileMin (f : ℕ → EReal) (j : ℕ) (c : EReal) : c ≤ tileMin f j ↔ ∀ r, r < 1024 → c ≤ f (1024 * j + r) :=
  le_fold_min_fin (fun r => f (1024 * j + r)) c

/-- The lower bounds of the running minimum after tile `j` are the lower bounds of the first `1024 (j + 1)` entries. -/
theorem le_runMin (f : ℕ → EReal) (j : ℕ) (c : EReal) : c ≤ runMin f j ↔ ∀ n, n < 1024 * (j + 1) → c ≤ f n := by
  induction j with
  | zero =>
    rw [runMin_zero, le_min_iff, le_tileMin]
    constructor
    · rintro ⟨-, h⟩ n hn
      have := h n (by omega)
      rwa [Nat.mul_zero, Nat.zero_add] at this
    · intro h
      refine ⟨le_top, fun r hr => ?_⟩
      rw [Nat.mul_zero, Nat.zero_add]
      exact h r (by omega)
  | succ j ih =>
    rw [runMin_succ, le_min_iff, ih, le_tileMin]
    constructor
    · rintro ⟨h1, h2⟩ n hn
      by_cases hlt : n < 1024 * (j + 1)
      · exact h1 n hlt
      · have := h2 (n - 1024 * (j + 1)) (by omega)
        rwa [show 1024 * (j + 1) + (n - 1024 * (j + 1)) = n by omega] at this
    · intro h
      exact ⟨fun n hn => h n (by omega), fun r hr => h _ (by omega)⟩

theorem runMin_last (f : ℕ → EReal) :
    runMin f 7 = (Finset.univ : Finset (Fin 8192)).fold min ⊤ (fun n => f n.val) :=
  eq_of_forall_le_iff fun c => by rw [le_runMin, le_fold_min_fin f c]

/-! ## The maximum -/

/-- The maximum of tile `j`, from `⊥`. -/
def tileMax (f : ℕ → EReal) (j : ℕ) : EReal :=
  (Finset.univ : Finset (Fin 1024)).fold max ⊥ (fun r => f (1024 * j + r.val))

/-- The running maximum after tile `j`, from `⊥`. -/
def runMax (f : ℕ → EReal) : ℕ → EReal
  | 0 => max ⊥ (tileMax f 0)
  | j + 1 => max (runMax f j) (tileMax f (j + 1))

theorem runMax_zero (f : ℕ → EReal) : runMax f 0 = max ⊥ (tileMax f 0) := rfl
theorem runMax_succ (f : ℕ → EReal) (j : ℕ) : runMax f (j + 1) = max (runMax f j) (tileMax f (j + 1)) := rfl

/-- The upper bounds of a maximum, from `⊥`, over the indices below `N` are the common upper bounds of the entries. -/
theorem fold_max_fin_le {N : ℕ} (g : ℕ → EReal) (c : EReal) :
    (Finset.univ : Finset (Fin N)).fold max ⊥ (fun r => g r.val) ≤ c ↔ ∀ r, r < N → g r ≤ c := by
  rw [Finset.fold_max_le]
  constructor
  · rintro ⟨-, h⟩ r hr
    exact h ⟨r, hr⟩ (Finset.mem_univ _)
  · intro h
    exact ⟨bot_le, fun x _ => h x.val x.isLt⟩

theorem tileMax_le (f : ℕ → EReal) (j : ℕ) (c : EReal) : tileMax f j ≤ c ↔ ∀ r, r < 1024 → f (1024 * j + r) ≤ c :=
  fold_max_fin_le (fun r => f (1024 * j + r)) c

/-- The upper bounds of the running maximum after tile `j` are the upper bounds of the first `1024 (j + 1)` entries. -/
theorem runMax_le (f : ℕ → EReal) (j : ℕ) (c : EReal) : runMax f j ≤ c ↔ ∀ n, n < 1024 * (j + 1) → f n ≤ c := by
  induction j with
  | zero =>
    rw [runMax_zero, max_le_iff, tileMax_le]
    constructor
    · rintro ⟨-, h⟩ n hn
      have := h n (by omega)
      rwa [Nat.mul_zero, Nat.zero_add] at this
    · intro h
      refine ⟨bot_le, fun r hr => ?_⟩
      rw [Nat.mul_zero, Nat.zero_add]
      exact h r (by omega)
  | succ j ih =>
    rw [runMax_succ, max_le_iff, ih, tileMax_le]
    constructor
    · rintro ⟨h1, h2⟩ n hn
      by_cases hlt : n < 1024 * (j + 1)
      · exact h1 n hlt
      · have := h2 (n - 1024 * (j + 1)) (by omega)
        rwa [show 1024 * (j + 1) + (n - 1024 * (j + 1)) = n by omega] at this
    · intro h
      exact ⟨fun n hn => h n (by omega), fun r hr => h _ (by omega)⟩

theorem runMax_last (f : ℕ → EReal) :
    runMax f 7 = (Finset.univ : Finset (Fin 8192)).fold max ⊥ (fun n => f n.val) :=
  eq_of_forall_ge_iff fun c => by rw [runMax_le, fold_max_fin_le f c]

/-! ## The column as a function of a natural number -/

/-- Column `(p, ·, d)` of the array, zero past the end. -/
def col (X : SX.Idx → EReal) (p : Fin 32) (d : Fin 256) (n : ℕ) : EReal :=
  if h : n < 8192 then X (ix3 p ⟨n, h⟩ d) else 0

theorem col_fin (X : SX.Idx → EReal) (p : Fin 32) (d : Fin 256) (n : Fin 8192) :
    col X p d n.val = X (ix3 p n d) := by
  rw [col, dif_pos n.isLt]

theorem colSum_eq (X : SX.Idx → EReal) (p : Fin 32) (d : Fin 256) : colSum X p d = runSum (col X p d) 7 := by
  rw [runSum_last, colSum]
  exact Finset.sum_congr rfl fun n _ => (col_fin X p d n).symm

theorem colMin_eq (X : SX.Idx → EReal) (p : Fin 32) (d : Fin 256) : colMin X p d = runMin (col X p d) 7 := by
  rw [runMin_last, colMin]
  exact congrArg (fun g => (Finset.univ : Finset (Fin 8192)).fold min ⊤ g) (funext fun n => (col_fin X p d n).symm)

theorem colMax_eq (X : SX.Idx → EReal) (p : Fin 32) (d : Fin 256) : colMax X p d = runMax (col X p d) 7 := by
  rw [runMax_last, colMax]
  exact congrArg (fun g => (Finset.univ : Finset (Fin 8192)).fold max ⊥ g) (funext fun n => (col_fin X p d n).symm)

/-- The sum of the squares of the column, walked in tiles. -/
theorem colSq (X : SX.Idx → EReal) (p : Fin 32) (d : Fin 256) :
    ∑ n : Fin 8192, X (ix3 p n d) * X (ix3 p n d) = runSum (fun n => col X p d n * col X p d n) 7 := by
  rw [runSum_last]
  exact Finset.sum_congr rfl fun n _ => by rw [col_fin]

end Cert.Pool

end
-- ==== Proof.KernelAccum.lean ====
/-
  The four accumulators after every grid point. Point `t` is tile `t % 8` of batch group `t / 8`; for the batch row
  `p = 8 (t / 8) + b` and a channel `d` the column `n ↦ X (p, n, d)` is walked tile by tile, and after point `t` the
  accumulators hold, at entry `(b, d)`, the running sum, the running sum of squares, the running minimum and the running
  maximum of that column over the tiles `0 .. t % 8`. By induction on the point: a group's first tile resets and folds,
  every other tile folds into what the point before left.
-/
import proofs.«103313_j35631048688006_1_alg».proof.Proof.Gen.KernelIdeal.Value
import proofs.«103313_j35631048688006_1_alg».proof.Proof.KernelPieces
import proofs.«103313_j35631048688006_1_alg».proof.Proof.KernelPayload
import proofs.«103313_j35631048688006_1_alg».proof.Proof.KernelBlocks
import proofs.«103313_j35631048688006_1_alg».proof.Proof.PoolTiles

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.Pool

variable (m : (ℓ : Loc nD τ sig) → Buf (Elt Ideal) ℓ) (c : Dev nD)

/-- The argument array `X`. -/
abbrev X : SX.Idx → EReal := m ((c : Thread nD τ).loc main_arg0)

/-- The input block of `X` at point `t`. -/
def tile (t : Fin cfg0.N) : Vec Ideal S8x1024x256 .f32 := iblk m c 0 t

/-- An entry of the input block at point `t` is an entry of the column of its batch row. -/
theorem tile_col (t : Fin cfg0.N) (b : Fin 8) (d : Fin 256) (p : Fin 32) (hp : p.val = 8 * (t.val / 8) + b.val)
    (r : Fin 1024) :
    tile m c t (ix3 b r d) = col (X m c) p d (1024 * (t.val % 8) + r.val) := by
  have hr := r.isLt
  have hn : 1024 * (t.val % 8) + r.val < 8192 := by have := Nat.mod_lt t.val (by decide : 0 < 8); omega
  refine (Blocks.x_block m c t b r d (by rw [← hp]; exact p.isLt) hn).trans ?_
  unfold col
  rw [dif_pos hn]
  exact congrArg (fun a : Fin 32 => X m c (ix3 a ⟨1024 * (t.val % 8) + r.val, hn⟩ d)) (Fin.ext hp.symm)

/-- The tile's four column reductions, in the column's terms. -/
theorem tile_sum_col (t : Fin cfg0.N) (b : Fin 8) (d : Fin 256) (p : Fin 32) (hp : p.val = 8 * (t.val / 8) + b.val) :
    ∑ r : Fin 1024, tile m c t (ix3 b r d) = tileSum (col (X m c) p d) (t.val % 8) :=
  Finset.sum_congr rfl fun r _ => tile_col m c t b d p hp r

theorem tile_sq_col (t : Fin cfg0.N) (b : Fin 8) (d : Fin 256) (p : Fin 32) (hp : p.val = 8 * (t.val / 8) + b.val) :
    ∑ r : Fin 1024, tile m c t (ix3 b r d) * tile m c t (ix3 b r d)
      = tileSum (fun n => col (X m c) p d n * col (X m c) p d n) (t.val % 8) :=
  Finset.sum_congr rfl fun r _ => by rw [tile_col m c t b d p hp r]

theorem tile_min_col (t : Fin cfg0.N) (b : Fin 8) (d : Fin 256) (p : Fin 32) (hp : p.val = 8 * (t.val / 8) + b.val) :
    (Finset.univ : Finset (Fin 1024)).fold min ⊤ (fun r => tile m c t (ix3 b r d))
      = tileMin (col (X m c) p d) (t.val % 8) :=
  congrArg (fun f => (Finset.univ : Finset (Fin 1024)).fold min ⊤ f) (funext fun r => tile_col m c t b d p hp r)

theorem tile_max_col (t : Fin cfg0.N) (b : Fin 8) (d : Fin 256) (p : Fin 32) (hp : p.val = 8 * (t.val / 8) + b.val) :
    (Finset.univ : Finset (Fin 1024)).fold max ⊥ (fun r => tile m c t (ix3 b r d))
      = tileMax (col (X m c) p d) (t.val % 8) :=
  congrArg (fun f => (Finset.univ : Finset (Fin 1024)).fold max ⊥ f) (funext fun r => tile_col m c t b d p hp r)

/-- What the four accumulators hold after point `t`. -/
structure Holds (t : Fin cfg0.N) : Prop where
  sum : ∀ (b : Fin 8) (d : Fin 256) (p : Fin 32), p.val = 8 * (t.val / 8) + b.val →
    (outsAt0 m c t.val t.isLt).2.1 (ix2 b d) = runSum (col (X m c) p d) (t.val % 8)
  sq : ∀ (b : Fin 8) (d : Fin 256) (p : Fin 32), p.val = 8 * (t.val / 8) + b.val →
    (outsAt0 m c t.val t.isLt).2.2.1 (ix2 b d) = runSum (fun n => col (X m c) p d n * col (X m c) p d n) (t.val % 8)
  mn : ∀ (b : Fin 8) (d : Fin 256) (p : Fin 32), p.val = 8 * (t.val / 8) + b.val →
    (outsAt0 m c t.val t.isLt).2.2.2.1 (ix2 b d) = runMin (col (X m c) p d) (t.val % 8)
  mx : ∀ (b : Fin 8) (d : Fin 256) (p : Fin 32), p.val = 8 * (t.val / 8) + b.val →
    (outsAt0 m c t.val t.isLt).2.2.2.2 (ix2 b d) = runMax (col (X m c) p d) (t.val % 8)

/-- A group's first tile: reset, then fold. -/
theorem holds_first (t : Fin cfg0.N) (h0 : t.val % 8 = 0) : Holds m c t := by
  have h1 : ¬t.val % 8 = 7 := by omega
  have e := outsAt0_A m c t h0 h1
  refine ⟨fun b d p hp => ?_, fun b d p hp => ?_, fun b d p hp => ?_, fun b d p hp => ?_⟩
  · rw [e]; dsimp only
    rw [Pieces.first_0]
    refine (Payload.fold_sum (tile m c t) _ b d).trans ?_
    rw [Payload.reset_sum, tile_sum_col m c t b d p hp, h0]; rfl
  · rw [e]; dsimp only
    rw [Pieces.first_1]
    refine (Payload.fold_sq (tile m c t) _ b d).trans ?_
    rw [Payload.reset_sq, tile_sq_col m c t b d p hp, h0]; rfl
  · rw [e]; dsimp only
    rw [Pieces.first_2]
    refine (Payload.fold_min (tile m c t) _ b d).trans ?_
    rw [Payload.reset_min, tile_min_col m c t b d p hp, h0]; rfl
  · rw [e]; dsimp only
    rw [Pieces.first_3]
    refine (Payload.fold_max (tile m c t) _ b d).trans ?_
    rw [Payload.reset_max, tile_max_col m c t b d p hp, h0]; rfl

/-- The point before a point that is not a group's first tile: the same group, the tile before. -/
def prev (t : Fin cfg0.N) : Fin cfg0.N := ⟨t.val - 1, Nat.lt_of_le_of_lt (Nat.sub_le _ _) t.isLt⟩

/-- Any other tile: fold into what the point before left. -/
theorem holds_next (t : Fin cfg0.N) (h0 : ¬t.val % 8 = 0) (ih : Holds m c (prev t)) : Holds m c t := by
  obtain ⟨j, hj⟩ : ∃ j, t.val % 8 = j + 1 := ⟨t.val % 8 - 1, by omega⟩
  have hpj : (prev t).val % 8 = j := by show (t.val - 1) % 8 = j; omega
  have hpg : (prev t).val / 8 = t.val / 8 := by show (t.val - 1) / 8 = t.val / 8; omega
  have es : ∀ (b : Fin 8) (d : Fin 256) (p : Fin 32), p.val = 8 * (t.val / 8) + b.val →
      (outsAt0 m c (t.val - 1) (Nat.lt_of_le_of_lt (Nat.sub_le _ _) t.isLt)).2.1 (ix2 b d) = runSum (col (X m c) p d) j :=
    fun b d p hp => (ih.sum b d p (by rw [hpg]; exact hp)).trans (by rw [hpj])
  have eq' : ∀ (b : Fin 8) (d : Fin 256) (p : Fin 32), p.val = 8 * (t.val / 8) + b.val →
      (outsAt0 m c (t.val - 1) (Nat.lt_of_le_of_lt (Nat.sub_le _ _) t.isLt)).2.2.1 (ix2 b d)
        = runSum (fun n => col (X m c) p d n * col (X m c) p d n) j :=
    fun b d p hp => (ih.sq b d p (by rw [hpg]; exact hp)).trans (by rw [hpj])
  have emn : ∀ (b : Fin 8) (d : Fin 256) (p : Fin 32), p.val = 8 * (t.val / 8) + b.val →
      (outsAt0 m c (t.val - 1) (Nat.lt_of_le_of_lt (Nat.sub_le _ _) t.isLt)).2.2.2.1 (ix2 b d) = runMin (col (X m c) p d) j :=
    fun b d p hp => (ih.mn b d p (by rw [hpg]; exact hp)).trans (by rw [hpj])
  have emx : ∀ (b : Fin 8) (d : Fin 256) (p : Fin 32), p.val = 8 * (t.val / 8) + b.val →
      (outsAt0 m c (t.val - 1) (Nat.lt_of_le_of_lt (Nat.sub_le _ _) t.isLt)).2.2.2.2 (ix2 b d) = runMax (col (X m c) p d) j :=
    fun b d p hp => (ih.mx b d p (by rw [hpg]; exact hp)).trans (by rw [hpj])
  by_cases h1 : t.val % 8 = 7
  · have e := outsAt0_C m c t h0 h1
    refine ⟨fun b d p hp => ?_, fun b d p hp => ?_, fun b d p hp => ?_, fun b d p hp => ?_⟩
    · rw [e]; dsimp only
      rw [Pieces.last_0]
      refine (Payload.fold_sum (tile m c t) _ b d).trans ?_
      rw [es b d p hp, tile_sum_col m c t b d p hp, hj]; rfl
    · rw [e]; dsimp only
      rw [Pieces.last_1]
      refine (Payload.fold_sq (tile m c t) _ b d).trans ?_
      rw [eq' b d p hp, tile_sq_col m c t b d p hp, hj]; rfl
    · rw [e]; dsimp only
      rw [Pieces.last_2]
      refine (Payload.fold_min (tile m c t) _ b d).trans ?_
      rw [emn b d p hp, tile_min_col m c t b d p hp, hj]; rfl
    · rw [e]; dsimp only
      rw [Pieces.last_3]
      refine (Payload.fold_max (tile m c t) _ b d).trans ?_
      rw [emx b d p hp, tile_max_col m c t b d p hp, hj]; rfl
  · have e := outsAt0_B m c t h0 h1
    refine ⟨fun b d p hp => ?_, fun b d p hp => ?_, fun b d p hp => ?_, fun b d p hp => ?_⟩
    · rw [e]; dsimp only
      rw [Pieces.mid_0]
      refine (Payload.fold_sum (tile m c t) _ b d).trans ?_
      rw [es b d p hp, tile_sum_col m c t b d p hp, hj]; rfl
    · rw [e]; dsimp only
      rw [Pieces.mid_1]
      refine (Payload.fold_sq (tile m c t) _ b d).trans ?_
      rw [eq' b d p hp, tile_sq_col m c t b d p hp, hj]; rfl
    · rw [e]; dsimp only
      rw [Pieces.mid_2]
      refine (Payload.fold_min (tile m c t) _ b d).trans ?_
      rw [emn b d p hp, tile_min_col m c t b d p hp, hj]; rfl
    · rw [e]; dsimp only
      rw [Pieces.mid_3]
      refine (Payload.fold_max (tile m c t) _ b d).trans ?_
      rw [emx b d p hp, tile_max_col m c t b d p hp, hj]; rfl

/-- After every point the accumulators hold the running reductions — by induction on the point. -/
theorem holds : ∀ (n : ℕ) (t : Fin cfg0.N), t.val = n → Holds m c t
  | 0, t, h => holds_first m c t (by rw [h])
  | n + 1, t, h => by
    by_cases h0 : t.val % 8 = 0
    · exact holds_first m c t h0
    · exact holds_next m c t h0 (holds n (prev t) (by show t.val - 1 = n; omega))

end Cert.KernelIdeal.Accum

end
-- ==== Proof.KernelOutput.lean ====
/-
  The last tile's output block read at one entry. From the four accumulators (sum `s`, sum of squares `q`, minimum
  `mn`, maximum `mx`, each [8, 256]) the body forms the feature row of batch row `b`: for channel `d` the mean
  `s / 8192`, the minimum, the maximum, and the square root of `max ((q - (8192 * mean) * mean) / 8191) 0`, laid side
  by side over 1024 columns. The block's entry `(b, c)` is the feature row times column `c` of the [1024, 512]
  weight block, plus the bias row's entry `c`.
-/
import proofs.«103313_j35631048688006_1_alg».proof.Proof.Gen.KernelIdeal.Skeleton
import proofs.«103313_j35631048688006_1_alg».proof.Proof.PoolSpec
import proofs.«103313_j35631048688006_1_alg».proof.Proof.LibMatmulPlain
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.Output

open Cert.KernelIdeal Cert.KernelIdeal.Gen

/-- The mean the body forms from the sum table. -/
def kmean (s : Vec Ideal S8x256 .f32) (b : Fin 8) (d : Fin 256) : EReal :=
  Ideal.div (s (ix2 b d)) ((8192 : ℝ) : EReal)

/-- The clamped variance the body forms from the sum and sum-of-squares tables. -/
def kvar (s q : Vec Ideal S8x256 .f32) (b : Fin 8) (d : Fin 256) : EReal :=
  max (Ideal.div (q (ix2 b d) - (((8192 : ℝ) : EReal) * kmean s b d) * kmean s b d) ((8191 : ℝ) : EReal)) 0

/-- The feature row the body forms. -/
def kfeat (s q mn mx : Vec Ideal S8x256 .f32) (b : Fin 8) (k : Fin 1024) : EReal :=
  if h0 : k.val < 256 then kmean s b ⟨k.val, h0⟩
  else if h1 : k.val < 512 then mn (ix2 b ⟨k.val - 256, by omega⟩)
  else if h2 : k.val < 768 then mx (ix2 b ⟨k.val - 512, by omega⟩)
  else Ideal.sqrt (kvar s q b ⟨k.val - 768, by have := k.isLt; omega⟩)

/-- The four tables as the body computes them, entry by entry. -/
theorem mean_tab (s : Vec Ideal S8x256 .f32) (b : Fin 8) (d : Fin 256) :
    divf s (broadcast S8x256 (Scalar.ofBits (F := Ideal) .f32 0x46000000#32)) (ix2 b d) = kmean s b d := by
  show Ideal.div (s (ix2 b d)) (Ideal.ofBits .f32 0x46000000#32) = _
  rw [Cert.Pool.ofBits_8192]; rfl

theorem std_tab (s q : Vec Ideal S8x256 .f32) (b : Fin 8) (d : Fin 256) :
    sqrt (maximumf (divf (subf q (mulf (mulf (broadcast S8x256 (Scalar.ofBits (F := Ideal) .f32 0x46000000#32))
        (divf s (broadcast S8x256 (Scalar.ofBits (F := Ideal) .f32 0x46000000#32))))
        (divf s (broadcast S8x256 (Scalar.ofBits (F := Ideal) .f32 0x46000000#32)))))
        (broadcast S8x256 (Scalar.ofBits (F := Ideal) .f32 0x45FFF800#32)))
        (broadcast S8x256 (Scalar.ofBits (F := Ideal) .f32 0x00000000#32))) (ix2 b d)
      = Ideal.sqrt (kvar s q b d) := by
  show Ideal.sqrt (max (Ideal.div (q (ix2 b d) - (Ideal.ofBits .f32 0x46000000#32 * Ideal.div (s (ix2 b d)) (Ideal.ofBits .f32 0x46000000#32))
      * Ideal.div (s (ix2 b d)) (Ideal.ofBits .f32 0x46000000#32)) (Ideal.ofBits .f32 0x45FFF800#32)) (Ideal.ofBits .f32 0x00000000#32)) = _
  rw [Cert.Pool.ofBits_8192, Cert.Pool.ofBits_8191, Cert.Pool.ofBits_zero]; rfl

/-- The four tables side by side, at column `k` of row `b`: the table whose 256 columns hold `k`. -/
theorem feat_row (s q mn mx : Vec Ideal S8x256 .f32) (v34 v44 : FVec Ideal S8x256 .f32)
    (h34 : ∀ (b : Fin 8) (d : Fin 256), v34 (ix2 b d) = kmean s b d)
    (h44 : ∀ (b : Fin 8) (d : Fin 256), v44 (ix2 b d) = Ideal.sqrt (kvar s q b d))
    (hc : Shape.Concatenates [S8x256, S8x256, S8x256, S8x256] S8x1024 1) (b : Fin 8) (k : Fin 1024) :
    concatenate S8x1024 1 [⟨S8x256, v34⟩, ⟨S8x256, mn⟩, ⟨S8x256, mx⟩, ⟨S8x256, v44⟩] hc (ix2 b k) = kfeat s q mn mx b k := by
  have hk := k.isLt
  unfold kfeat
  by_cases h0 : k.val < 256
  · rw [dif_pos h0, ← h34]
    exact concatenate_apply_piece (1 : Fin S8x1024.rank) [⟨S8x256, v34⟩, ⟨S8x256, mn⟩, ⟨S8x256, mx⟩, ⟨S8x256, v44⟩] hc (ix2 b k) 0 (by show 0 < 4; omega) S8x256 v34 rfl rfl 0 (by rfl) (ix2 b ⟨k.val - 0, by omega⟩) (fun a ha => by match a with | ⟨0, _⟩ => rfl | ⟨1, _⟩ => exact absurd (Fin.ext rfl) ha) (by show 0 + (k.val - 0) = k.val; omega)
  · rw [dif_neg h0]
    by_cases h1 : k.val < 512
    · rw [dif_pos h1]
      exact concatenate_apply_piece (1 : Fin S8x1024.rank) [⟨S8x256, v34⟩, ⟨S8x256, mn⟩, ⟨S8x256, mx⟩, ⟨S8x256, v44⟩] hc (ix2 b k) 1 (by show 1 < 4; omega) S8x256 mn rfl rfl 256 (by rfl) (ix2 b ⟨k.val - 256, by omega⟩) (fun a ha => by match a with | ⟨0, _⟩ => rfl | ⟨1, _⟩ => exact absurd (Fin.ext rfl) ha) (by show 256 + (k.val - 256) = k.val; omega)
    · rw [dif_neg h1]
      by_cases h2 : k.val < 768
      · rw [dif_pos h2]
        exact concatenate_apply_piece (1 : Fin S8x1024.rank) [⟨S8x256, v34⟩, ⟨S8x256, mn⟩, ⟨S8x256, mx⟩, ⟨S8x256, v44⟩] hc (ix2 b k) 2 (by show 2 < 4; omega) S8x256 mx rfl rfl 512 (by rfl) (ix2 b ⟨k.val - 512, by omega⟩) (fun a ha => by match a with | ⟨0, _⟩ => rfl | ⟨1, _⟩ => exact absurd (Fin.ext rfl) ha) (by show 512 + (k.val - 512) = k.val; omega)
      · rw [dif_neg h2, ← h44]
        exact concatenate_apply_piece (1 : Fin S8x1024.rank) [⟨S8x256, v34⟩, ⟨S8x256, mn⟩, ⟨S8x256, mx⟩, ⟨S8x256, v44⟩] hc (ix2 b k) 3 (by show 3 < 4; omega) S8x256 v44 rfl rfl 768 (by rfl) (ix2 b ⟨k.val - 768, by omega⟩) (fun a ha => by match a with | ⟨0, _⟩ => rfl | ⟨1, _⟩ => exact absurd (Fin.ext rfl) ha) (by show 768 + (k.val - 768) = k.val; omega)

/-- The output block at entry `(b, c)`: the feature row of `b` times column `c` of the weight block, plus the bias. -/
theorem final_apply (s q mn mx : Vec Ideal S8x256 .f32) (w : Vec Ideal S1024x512 .f32) (bias : Vec Ideal S1x512 .f32)
    (b : Fin 8) (c : Fin 512) :
    k0_pay1 s q mn mx w bias (ix2 b c)
      = (∑ k : Fin 1024, kfeat s q mn mx b k * w (ix2 k c)) + bias (ix2 (0 : Fin 1) c) := by
  unfold k0_pay1
  rw [shapeCast_self, shapeCast_self]
  refine (addf_apply _ _ (ix2 b c)).trans ?_
  refine congrArg₂ (· + ·) ?_ ?_
  · refine (Cert.LibMatmulPlain.matmul_zero_apply dot_S8x1024_S1024x512_S8x512_1_0_0_1_n_n rfl rfl rfl rfl rfl rfl none _ w b c).trans ?_
    refine Finset.sum_congr rfl fun k _ => ?_
    rw [feat_row s q mn mx _ _ (mean_tab s) (std_tab s q) _ b k]
  · exact broadcastTo_apply bias broadcasts_S1x512_S8x512 (ix2 b c) (ix2 (0 : Fin 1) c)
      (fun a => by match a with | ⟨0, _⟩ => rfl | ⟨1, _⟩ => rfl)

end Cert.KernelIdeal.Output

end
-- ==== Proof.PoolAlgebra.lean ====
/-
  The one algebraic law of this certificate: on a column of real numbers the "sum of squares minus
  n times the squared mean" form of the variance, clamped at zero, is the sum of squared deviations from
  the mean. With S = ∑ xₙ and μ = S / N one has ∑ (xₙ - μ)² = ∑ xₙ² - 2 μ S + N μ² = ∑ xₙ² - N μ², because
  S = N μ. The right side is therefore a sum of squares, hence nonnegative, and stays so after the
  division by N - 1 > 0, so the clamp at zero changes nothing.
  The identity is proved over the reals for an arbitrary number N of terms and then carried to the
  extended reals, where every entry is the image of a real number.
-/
import proofs.«103313_j35631048688006_1_alg».proof.Proof.PoolSpec

noncomputable section

namespace Cert.Pool

open Idealize.ShloMosaic Idealize.ShloMosaic.ValueIdx

/-! ## Sums of real numbers inside the extended reals -/

/-- The inclusion of the reals in the extended reals commutes with finite sums. -/
theorem coe_sum_finset {ι : Type*} (s : Finset ι) (f : ι → ℝ) :
    ((∑ n ∈ s, f n : ℝ) : EReal) = ∑ n ∈ s, (f n : EReal) := by
  classical
  induction s using Finset.induction_on with
  | empty => simp
  | insert a s ha ih => rw [Finset.sum_insert ha, Finset.sum_insert ha, EReal.coe_add, ih]

theorem coe_sum_fin {N : ℕ} (f : Fin N → ℝ) : ((∑ n, f n : ℝ) : EReal) = ∑ n, (f n : EReal) :=
  coe_sum_finset Finset.univ f

/-! ## The identity over the reals -/

/-- If the `N` numbers `x` sum to `N * μ`, their squared deviations from `μ` sum to
    `∑ xₙ² - N μ²`. -/
theorem sum_sq_dev {N : ℕ} (x : Fin N → ℝ) (μ : ℝ) (h : ∑ m, x m = (N : ℝ) * μ) :
    ∑ n, (x n - μ) * (x n - μ) = (∑ n, x n * x n) - ((N : ℝ) * μ) * μ := by
  have h1 : ∀ n, (x n - μ) * (x n - μ) = x n * x n - (2 * μ) * x n + μ * μ := fun n => by ring
  simp only [h1, Finset.sum_add_distrib, Finset.sum_sub_distrib, ← Finset.mul_sum, Finset.sum_const,
    Finset.card_univ, Fintype.card_fin, nsmul_eq_mul, h]
  ring

/-! ## The column of real numbers -/

/-- The mean of a column of real numbers is the real number `S * (1 / 8192)`. -/
theorem mean_real (X : SX.Idx → EReal) (p : Fin 32) (d : Fin 256) (x : Fin 8192 → ℝ)
    (hx : ∀ n, X (ix3 p n d) = (x n : EReal)) :
    mean X p d = (((∑ n, x n) * (1 / 8192) : ℝ) : EReal) := by
  rw [mean, colSum, Ideal.div_coe (by norm_num)]
  simp only [hx]
  rw [← coe_sum_fin, ← EReal.coe_mul]

/-- The variance of a column of real numbers, as a real number. -/
theorem var_real (X : SX.Idx → EReal) (p : Fin 32) (d : Fin 256) (x : Fin 8192 → ℝ)
    (hx : ∀ n, X (ix3 p n d) = (x n : EReal)) :
    var X p d = (((∑ n, (x n - (∑ m, x m) * (1 / 8192)) * (x n - (∑ m, x m) * (1 / 8192))) * (1 / 8191) : ℝ) : EReal) := by
  rw [var, mean_real X p d x hx, Ideal.div_coe (by norm_num)]
  simp only [hx, ← EReal.coe_sub, ← EReal.coe_mul]
  rw [← coe_sum_fin, ← EReal.coe_mul]

/-- The variance as the kernel computes it, clamped at zero, is the variance of the specification. -/
theorem var_kernel_eq (X : SX.Idx → EReal) (hX : ∀ i, ∃ r : ℝ, X i = (r : EReal)) (p : Fin 32) (d : Fin 256) :
    max (Ideal.div ((∑ n : Fin 8192, X (ix3 p n d) * X (ix3 p n d)) - (((8192 : ℝ) : EReal) * mean X p d) * mean X p d) ((8191 : ℝ) : EReal)) 0 = var X p d := by
  choose x hx using fun n : Fin 8192 => hX (ix3 p n d)
  have hS : ∑ m, x m = ((8192 : ℕ) : ℝ) * ((∑ m, x m) * (1 / 8192)) := by
    push_cast; ring
  have hdev := sum_sq_dev x ((∑ m, x m) * (1 / 8192)) hS
  rw [var_real X p d x hx, mean_real X p d x hx, Ideal.div_coe (by norm_num)]
  simp only [hx, ← EReal.coe_mul]
  rw [← coe_sum_fin, ← EReal.coe_sub, ← EReal.coe_mul]
  have hcast : ((8192 : ℕ) : ℝ) = (8192 : ℝ) := by norm_num
  rw [hcast] at hdev
  rw [← hdev]
  refine max_eq_left ?_
  rw [← EReal.coe_zero, EReal.coe_le_coe_iff]
  exact mul_nonneg (Finset.sum_nonneg fun n _ => mul_self_nonneg _) (by norm_num)

end Cert.Pool

end
-- ==== Proof.KernelFeat.lean ====
/-
  The kernel's feature row is the specification's. When the last tile of a batch group has been folded in, the
  four tables hold, for batch row `b` of the group and channel `d`, the running sum, the running sum of squares, the
  running minimum and the running maximum of the whole column of batch row `p = 8 g + b`; after the last tile
  these are the column's sum, sum of squares, minimum and maximum. The mean formed from the sum table is then the
  specification's mean; the clamped "sum of squares minus 8192 times the squared mean, over 8191" is the
  specification's variance, by the algebraic law for a column of real numbers; and the four quarters of the
  feature row agree one by one.
-/
import proofs.«103313_j35631048688006_1_alg».proof.Proof.KernelOutput
import proofs.«103313_j35631048688006_1_alg».proof.Proof.PoolTiles
import proofs.«103313_j35631048688006_1_alg».proof.Proof.PoolAlgebra

noncomputable section

open Idealize.ShloMosaic Idealize.ShloMosaic.ValueIdx

namespace Cert.KernelIdeal.Output

open Cert.KernelIdeal Cert.KernelIdeal.Gen

/-- The mean formed from the sum table, once the table holds the whole column's sum. -/
theorem kmean_eq (X : Cert.Pool.SX.Idx → EReal) (s : Vec Ideal Cert.KernelIdeal.S8x256 .f32) (g : ℕ)
    (hs : ∀ (b : Fin 8) (d : Fin 256) (p : Fin 32), p.val = 8 * g + b.val → s (ix2 b d) = Cert.Pool.runSum (Cert.Pool.col X p d) 7)
    (b : Fin 8) (p : Fin 32) (hp : p.val = 8 * g + b.val) (d : Fin 256) :
    kmean s b d = Cert.Pool.mean X p d := by
  show Ideal.div (s (ix2 b d)) ((8192 : ℝ) : EReal) = Ideal.div (Cert.Pool.colSum X p d) ((8192 : ℝ) : EReal)
  rw [hs b d p hp, ← Cert.Pool.colSum_eq]

/-- The clamped variance formed from the sum and sum-of-squares tables is the specification's variance, on a
    column of real numbers. -/
theorem kvar_eq (X : Cert.Pool.SX.Idx → EReal) (hX : ∀ i, ∃ r : ℝ, X i = (r : EReal))
    (s q : Vec Ideal Cert.KernelIdeal.S8x256 .f32) (g : ℕ)
    (hs : ∀ (b : Fin 8) (d : Fin 256) (p : Fin 32), p.val = 8 * g + b.val → s (ix2 b d) = Cert.Pool.runSum (Cert.Pool.col X p d) 7)
    (hq : ∀ (b : Fin 8) (d : Fin 256) (p : Fin 32), p.val = 8 * g + b.val → q (ix2 b d) = Cert.Pool.runSum (fun n => Cert.Pool.col X p d n * Cert.Pool.col X p d n) 7)
    (b : Fin 8) (p : Fin 32) (hp : p.val = 8 * g + b.val) (d : Fin 256) :
    kvar s q b d = Cert.Pool.var X p d := by
  show max (Ideal.div (q (ix2 b d) - (((8192 : ℝ) : EReal) * kmean s b d) * kmean s b d) ((8191 : ℝ) : EReal)) 0
    = Cert.Pool.var X p d
  rw [kmean_eq X s g hs b p hp d, hq b d p hp, ← Cert.Pool.colSq]
  exact Cert.Pool.var_kernel_eq X hX p d

/-- The kernel's feature row of batch row `b` of group `g` is the specification's feature row of batch row `8 g + b`. -/
theorem kfeat_eq (X : Cert.Pool.SX.Idx → EReal) (hX : ∀ i, ∃ r : ℝ, X i = (r : EReal))
    (s q mn mx : Vec Ideal Cert.KernelIdeal.S8x256 .f32) (g : ℕ)
    (hs : ∀ (b : Fin 8) (d : Fin 256) (p : Fin 32), p.val = 8 * g + b.val → s (ix2 b d) = Cert.Pool.runSum (Cert.Pool.col X p d) 7)
    (hq : ∀ (b : Fin 8) (d : Fin 256) (p : Fin 32), p.val = 8 * g + b.val → q (ix2 b d) = Cert.Pool.runSum (fun n => Cert.Pool.col X p d n * Cert.Pool.col X p d n) 7)
    (hmn : ∀ (b : Fin 8) (d : Fin 256) (p : Fin 32), p.val = 8 * g + b.val → mn (ix2 b d) = Cert.Pool.runMin (Cert.Pool.col X p d) 7)
    (hmx : ∀ (b : Fin 8) (d : Fin 256) (p : Fin 32), p.val = 8 * g + b.val → mx (ix2 b d) = Cert.Pool.runMax (Cert.Pool.col X p d) 7)
    (b : Fin 8) (p : Fin 32) (hp : p.val = 8 * g + b.val) (k : Fin 1024) :
    kfeat s q mn mx b k = Cert.Pool.feat X p k := by
  unfold kfeat Cert.Pool.feat
  by_cases h0 : k.val < 256
  · rw [dif_pos h0, dif_pos h0]
    exact kmean_eq X s g hs b p hp _
  · rw [dif_neg h0, dif_neg h0]
    by_cases h1 : k.val < 512
    · rw [dif_pos h1, dif_pos h1, hmn b _ p hp, ← Cert.Pool.colMin_eq]
    · rw [dif_neg h1, dif_neg h1]
      by_cases h2 : k.val < 768
      · rw [dif_pos h2, dif_pos h2, hmx b _ p hp, ← Cert.Pool.colMax_eq]
      · rw [dif_neg h2, dif_neg h2]
        exact congrArg Ideal.sqrt (kvar_eq X hX s q g hs hq b p hp _)

end Cert.KernelIdeal.Output

end
-- ==== Proof.KernelValue.lean ====
/-
  The kernel's result array. The output window is written back at the last tile of each batch group (points
  `8 g + 7`), its block the eight rows `8 g .. 8 g + 7` and all 512 columns; by then the accumulators hold the
  whole columns' sum, sum of squares, minimum and maximum, so the block stored there is the specification's rows
  (for entries of `X` that are real numbers: the variance law needs it). The four blocks cover the array.
-/
import proofs.«103313_j35631048688006_1_alg».proof.Proof.KernelAccum
import proofs.«103313_j35631048688006_1_alg».proof.Proof.KernelOutput
import proofs.«103313_j35631048688006_1_alg».proof.Proof.KernelFeat

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Pool

variable (m : (ℓ : Loc nD τ sig) → Buf (Elt Ideal) ℓ) (ρ : Dev nD → PrngReg)

/-- The weight and bias arguments. -/
abbrev W (c : Dev nD) : SW.Idx → EReal := m ((c : Thread nD τ).loc main_arg1)
abbrev B (c : Dev nD) : SB.Idx → EReal := m ((c : Thread nD τ).loc main_arg2)

/-- The specification's array of the three arguments. -/
abbrev result (c : Dev nD) : Buf (Elt Ideal) ((c : Thread nD τ).loc main_v2) :=
  Cert.Pool.out (Accum.X m c) (W m c) (B m c)

/-- The weight block and the bias row at point `t`. -/
def wblk (c : Dev nD) (t : Fin cfg0.N) : Vec Ideal S1024x512 .f32 := iblk m c 1 t
def bblk (c : Dev nD) (t : Fin cfg0.N) : Vec Ideal S1x512 .f32 := iblk m c 2 t

/-- The four tables as the last tile of a group has just updated them. -/
def tabS (c : Dev nD) (t : Fin cfg0.N) : Vec Ideal S8x256 .f32 := k0_pay6 (Accum.tile m c t) (outsAt0 m c (t.val - 1) (Nat.lt_of_le_of_lt (Nat.sub_le _ _) t.isLt)).2.1
def tabQ (c : Dev nD) (t : Fin cfg0.N) : Vec Ideal S8x256 .f32 := k0_pay7 (Accum.tile m c t) (outsAt0 m c (t.val - 1) (Nat.lt_of_le_of_lt (Nat.sub_le _ _) t.isLt)).2.2.1
def tabMn (c : Dev nD) (t : Fin cfg0.N) : Vec Ideal S8x256 .f32 := k0_pay8 (Accum.tile m c t) (outsAt0 m c (t.val - 1) (Nat.lt_of_le_of_lt (Nat.sub_le _ _) t.isLt)).2.2.2.1
def tabMx (c : Dev nD) (t : Fin cfg0.N) : Vec Ideal S8x256 .f32 := k0_pay9 (Accum.tile m c t) (outsAt0 m c (t.val - 1) (Nat.lt_of_le_of_lt (Nat.sub_le _ _) t.isLt)).2.2.2.2

theorem tabS_eq (c : Dev nD) (t : Fin cfg0.N) (h1 : t.val % 8 = 7) : (outsAt0 m c t.val t.isLt).2.1 = tabS m c t := by
  rw [outsAt0_C m c t (by omega) h1]; dsimp only; rw [Pieces.last_0]; rfl
theorem tabQ_eq (c : Dev nD) (t : Fin cfg0.N) (h1 : t.val % 8 = 7) : (outsAt0 m c t.val t.isLt).2.2.1 = tabQ m c t := by
  rw [outsAt0_C m c t (by omega) h1]; dsimp only; rw [Pieces.last_1]; rfl
theorem tabMn_eq (c : Dev nD) (t : Fin cfg0.N) (h1 : t.val % 8 = 7) : (outsAt0 m c t.val t.isLt).2.2.2.1 = tabMn m c t := by
  rw [outsAt0_C m c t (by omega) h1]; dsimp only; rw [Pieces.last_2]; rfl
theorem tabMx_eq (c : Dev nD) (t : Fin cfg0.N) (h1 : t.val % 8 = 7) : (outsAt0 m c t.val t.isLt).2.2.2.2 = tabMx m c t := by
  rw [outsAt0_C m c t (by omega) h1]; dsimp only; rw [Pieces.last_3]; rfl

/-- The stored block is the final payload over those tables. -/
theorem block_eq (c : Dev nD) (t : Fin cfg0.N) (h1 : t.val % 8 = 7) :
    (outsAt0 m c t.val t.isLt).1 = k0_pay1 (tabS m c t) (tabQ m c t) (tabMn m c t) (tabMx m c t) (wblk m c t) (bblk m c t) := by
  rw [outsAt0_C m c t (by omega) h1]; dsimp only; rw [Pieces.last_out]; rfl

/-- After the last tile the tables hold the whole columns' reductions. -/
theorem tabS_whole (c : Dev nD) (t : Fin cfg0.N) (h1 : t.val % 8 = 7) (b : Fin 8) (d : Fin 256) (p : Fin 32)
    (hp : p.val = 8 * (t.val / 8) + b.val) : tabS m c t (ix2 b d) = runSum (col (Accum.X m c) p d) 7 := by
  rw [← tabS_eq m c t h1]; exact ((Accum.holds m c t.val t rfl).sum b d p hp).trans (by rw [h1])
theorem tabQ_whole (c : Dev nD) (t : Fin cfg0.N) (h1 : t.val % 8 = 7) (b : Fin 8) (d : Fin 256) (p : Fin 32)
    (hp : p.val = 8 * (t.val / 8) + b.val) :
    tabQ m c t (ix2 b d) = runSum (fun n => col (Accum.X m c) p d n * col (Accum.X m c) p d n) 7 := by
  rw [← tabQ_eq m c t h1]; exact ((Accum.holds m c t.val t rfl).sq b d p hp).trans (by rw [h1])
theorem tabMn_whole (c : Dev nD) (t : Fin cfg0.N) (h1 : t.val % 8 = 7) (b : Fin 8) (d : Fin 256) (p : Fin 32)
    (hp : p.val = 8 * (t.val / 8) + b.val) : tabMn m c t (ix2 b d) = runMin (col (Accum.X m c) p d) 7 := by
  rw [← tabMn_eq m c t h1]; exact ((Accum.holds m c t.val t rfl).mn b d p hp).trans (by rw [h1])
theorem tabMx_whole (c : Dev nD) (t : Fin cfg0.N) (h1 : t.val % 8 = 7) (b : Fin 8) (d : Fin 256) (p : Fin 32)
    (hp : p.val = 8 * (t.val / 8) + b.val) : tabMx m c t (ix2 b d) = runMax (col (Accum.X m c) p d) 7 := by
  rw [← tabMx_eq m c t h1]; exact ((Accum.holds m c t.val t rfl).mx b d p hp).trans (by rw [h1])

/-- The block stored at a group's last tile, entry (b, q): the specification's entry of row `8 (t / 8) + b`. -/
theorem out_last (c : Dev nD) (hX : ∀ i, ∃ r : ℝ, Accum.X m c i = (r : EReal)) (t : Fin cfg0.N) (h1 : t.val % 8 = 7)
    (b : Fin 8) (q : Fin 512) (p : Fin 32) (hp : p.val = 8 * (t.val / 8) + b.val) (q' : Fin 512) (hq : q'.val = q.val) :
    (outsAt0 m c t.val t.isLt).1 (ix2 b q) = Cert.Pool.outAt (Accum.X m c) (W m c) (B m c) p q' := by
  obtain rfl : q = q' := Fin.ext hq.symm
  rw [block_eq m c t h1]
  refine (Output.final_apply (tabS m c t) (tabQ m c t) (tabMn m c t) (tabMx m c t) (wblk m c t) (bblk m c t) b q).trans ?_
  unfold Cert.Pool.outAt
  refine congrArg₂ (· + ·) (Finset.sum_congr rfl fun k _ => ?_) (Blocks.b_block m c t q)
  exact congrArg₂ (· * ·)
    (Output.kfeat_eq (Accum.X m c) hX (tabS m c t) (tabQ m c t) (tabMn m c t) (tabMx m c t) (t.val / 8)
      (tabS_whole m c t h1) (tabQ_whole m c t h1) (tabMn_whole m c t h1) (tabMx_whole m c t h1) b p hp k)
    (Blocks.w_block m c t k q)

/-- What a flushing point writes back is its block of the specification's array. -/
theorem flushed_eq (c : Dev nD) (hX : ∀ i, ∃ r : ℝ, Accum.X m c i = (r : EReal)) (t : Fin cfg0.N)
    (hf : (cfg0.win 3).flush t = true) :
    (dats m 0 c).flushed 3 t = ((cfg0.win 3).blk t).view.read (Elt Ideal) (result m c) := by
  have h1 : t.val % 8 = 7 := (flush0_3 t).mp hf
  have hi := Blocks.idx_facts t
  rw [Value.flushed3]
  funext y
  obtain ⟨b, q, rfl⟩ : ∃ (b : Fin 8) (q : Fin 512), y = ix2 b q := ⟨y 0, y 1, eq_ix2 y⟩
  rw [View.read_apply]
  show (outsAt0 m c t.val t.isLt).1 (ix2 b q) = Cert.Pool.outAt _ _ _ ⟨_, _⟩ ⟨_, _⟩
  refine out_last m c hX t h1 b q _ ?_ _ ?_
  · show win0_3.index t 0 * 8 + 1 * b.val = 8 * (t.val / 8) + b.val
    rw [hi.2.2.2.2.2.2.2.1]; omega
  · show win0_3.index t 1 * 512 + 1 * q.val = q.val
    rw [hi.2.2.2.2.2.2.2.2]; omega

/-- An index of the result array is in point `t`'s block iff each coordinate is in the block's range on its axis. -/
theorem mem_blk (t : Fin cfg0.N) (i : S32x512.Idx) :
    i ∈ ((cfg0.win 3).blk t).view.set ↔ ∀ a : Fin 2, win0_3.index t a * S8x512.size a ≤ (i a).val ∧ (i a).val < win0_3.index t a * S8x512.size a + S8x512.size a := by
  show i ∈ ((View.whole main_v2).slice (win0_3.rect t)).set ↔ _
  rw [View.set_slice_whole, Rect.mem_set_unit]
  exact Iff.rfl

/-- Every row lies in the block written at the last tile of its group. -/
theorem cover (i : S32x512.Idx) : ∃ t : Fin cfg0.N, (cfg0.win 3).flush t = true ∧ i ∈ ((cfg0.win 3).blk t).view.set := by
  have hN : cfg0.N = 32 := N_0
  have hi0 : (i 0).val < 32 := (i 0).isLt
  have hi1 : (i 1).val < 512 := (i 1).isLt
  refine ⟨⟨8 * ((i 0).val / 8) + 7, by rw [hN]; omega⟩, (flush0_3 _).mpr (by show (8 * ((i 0).val / 8) + 7) % 8 = 7; omega), ?_⟩
  rw [mem_blk]
  have hf := Blocks.idx_facts (⟨8 * ((i 0).val / 8) + 7, by rw [hN]; omega⟩ : Fin cfg0.N)
  have f0 := hf.2.2.2.2.2.2.2.1
  have f1 := hf.2.2.2.2.2.2.2.2
  intro a
  match a with
  | ⟨0, _⟩ =>
    show win0_3.index _ 0 * 8 ≤ (i 0).val ∧ (i 0).val < win0_3.index _ 0 * 8 + 8
    rw [f0]; show (8 * ((i 0).val / 8) + 7) / 8 * 8 ≤ (i 0).val ∧ (i 0).val < (8 * ((i 0).val / 8) + 7) / 8 * 8 + 8; omega
  | ⟨1, _⟩ =>
    show win0_3.index _ 1 * 512 ≤ (i 1).val ∧ (i 1).val < win0_3.index _ 1 * 512 + 512
    rw [f1]; omega

/-- The result array after the run is the specification's. -/
theorem final (c : Dev nD) (hX : ∀ i, ∃ r : ℝ, Accum.X m c i = (r : EReal)) :
    (dats m 0 c).arrAt 3 cfg0.N = result m c :=
  (dats m 0 c).arrAt_eq_of_cover 3 (result m c) (fun t hf => flushed_eq m c hX t hf) cover

/-- The run, read: the result array at the specification's value, the arguments unchanged. -/
theorem run (hX : ∀ (c : Dev nD) i, ∃ r : ℝ, Accum.X m c i = (r : EReal)) :
    θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hX c)), (h c).2⟩) (Value.run_blocks m ρ)

end Cert.KernelIdeal.Final

end
-- ==== Proof.PoolFinite.lean ====
/-
  Finiteness from the precondition. The precondition is the conjunction of three statements of one form,
  "every entry of the array has absolute value strictly below +∞", one per argument array; each is
  a reduction by "and" of the entrywise comparison, from the constant 1. The conjunction being 1 makes each
  reduction 1, a reduction by "and" that is 1 met only 1s, so every entry x of the first array has
  max x (-x) < ⊤ on the extended reals. Neither ⊤ (whose absolute value is ⊤) nor ⊥ (whose negation is ⊤)
  satisfies this strict inequality, so x is a real number.
-/
import Idealize.ShloMosaic.Lib.ReduceAll
import Idealize.ShloMosaic.Lib.IdealHost
import Idealize.ShloMosaic.PureOps.Ideal.Laws
import proofs.«103313_j35631048688006_1_alg».proof.Pre_finite_inputs
import proofs.«103313_j35631048688006_1_alg».proof.Proof.PoolSpec

noncomputable section

namespace Cert.Pool

open Idealize.ShloMosaic Idealize.ShloMosaic.ValueIdx

/-- The shape of a scalar has one index. -/
instance : Subsingleton Cert.Pre_finite_inputs.S_.Idx := ⟨fun a b => funext fun d => d.elim0⟩

/-- A bit made from a Boolean is 1 exactly when the Boolean is true. -/
theorem ofBool_eq_one (c : Bool) : BitVec.ofBool c = 1#1 ↔ c = true := by cases c <;> decide

/-- The ordered "less than" comparison of two extended reals is 1 only when the first is strictly below the second. -/
theorem lt_of_cmp_olt (a c : EReal) (h : Ideal.cmp .olt a c = 1#1) : a < c := by
  unfold Ideal.cmp at h
  rw [ofBool_eq_one] at h
  simpa using h

/-- An extended real whose absolute value `max x (-x)` is strictly below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every entry of the first argument array is a real number. -/
theorem entries_real [Cert.Pre_finite_inputs.Facts] (X : FVec Ideal Cert.Pre_finite_inputs.S32x8192x256 .f32)
    (W : FVec Ideal Cert.Pre_finite_inputs.S512x1024 .f32) (b : FVec Ideal Cert.Pre_finite_inputs.S512 .f32)
    (h : Cert.Pre_finite_inputs.fn (F := Ideal) X W b = fun _ => 1#1) : ∀ i, ∃ r : ℝ, X i = (r : EReal) := by
  intro i
  have e := congrFun h ValueIdx.ix0
  dsimp only [Cert.Pre_finite_inputs.fn] at e
  simp only [andi] at e
  rw [IntOp.andi_eq_one, IntOp.andi_eq_one] at e
  obtain ⟨⟨h3, -⟩, -⟩ := e
  have hi := Host.reduce_andi_all _ _ _ _ _ h3 i
  have hc : Ideal.cmp .olt (max (X i) (-(X i))) (Ideal.ofBits .f32 0x7F800000#32) = 1#1 := hi
  rw [ofBits_top] at hc
  exact real_of_abs_lt_top (X i) (lt_of_cmp_olt _ _ hc)

end Cert.Pool

end
-- ==== Proof.RefRun.lean ====
/-
  The reference program's @main as one straight line of host operations, the three calls it makes
  (the standard deviation, which calls the variance, which calls the selection) written out in place over the
  buffers each call names, and its run: every weakly fair execution ends with the result buffer at the
  operations' composed term of the three argument arrays, the arguments unchanged.
-/
import proofs.«103313_j35631048688006_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 39 operations in order, the calls written out: ten of @main (the sum, the mean, the minimum, the
    maximum, the integer one), nineteen of the variance, three of the selection, the square root, then six of
    @main (the concatenation, the transpose, the product, the bias broadcast twice, the sum). -/
abbrev ops : List (HloOp τ sig (Elt F)) :=
  [ nullary main_cst (constant S_ .f32 0x00000000#32),
    binary main_arg0 main_cst main_v0 ((fun x v => Host.reduceAdd x v reducesTo_S32x8192x256_S32x256_d1 h_S_) : (⟨S32x8192x256, .f32⟩ : BufTy).Contents (Elt F) → (⟨S_, .f32⟩ : BufTy).Contents (Elt F) → (⟨S32x256, .f32⟩ : BufTy).Contents (Elt F)),
    nullary main_cst_0 (constant S_ .f32 0x46000000#32),
    unary main_cst_0 main_v1 (broadcastInDim S32x256 ![] bcast_S_S32x256 : (⟨S_, .f32⟩ : BufTy).Contents (Elt F) → (⟨S32x256, .f32⟩ : BufTy).Contents (Elt F)),
    binary main_v0 main_v1 main_v2 (Host.divf : (⟨S32x256, .f32⟩ : BufTy).Contents (Elt F) → (⟨S32x256, .f32⟩ : BufTy).Contents (Elt F) → (⟨S32x256, .f32⟩ : BufTy).Contents (Elt F)),
    nullary main_cst_1 (constant S_ .f32 0x7F800000#32),
    binary main_arg0 main_cst_1 main_v3 ((fun x v => Host.reduce FloatOps.minimumf x v reducesTo_S32x8192x256_S32x256_d1 h_S_) : (⟨S32x8192x256, .f32⟩ : BufTy).Contents (Elt F) → (⟨S_, .f32⟩ : BufTy).Contents (Elt F) → (⟨S32x256, .f32⟩ : BufTy).Contents (Elt F)),
    nullary main_cst_2 (constant S_ .f32 0xFF800000#32),
    binary main_arg0 main_cst_2 main_v4 ((fun x v => Host.reduce FloatOps.maximumf x v reducesTo_S32x8192x256_S32x256_d1 h_S_) : (⟨S32x8192x256, .f32⟩ : BufTy).Contents (Elt F) → (⟨S_, .f32⟩ : BufTy).Contents (Elt F) → (⟨S32x256, .f32⟩ : BufTy).Contents (Elt F)),
    nullary main_c (constantI S_ 32 1#32),
    TRef.nullary main_call0_call0.cst (constant S_ .f32 0x00000000#32),
    TRef.binary (.of main_arg0) main_call0_call0.cst main_call0_call0.v0 (fun x v => Host.reduceAdd x v reducesTo_S32x8192x256_S32x256_d1 h_S_),
    TRef.unary main_call0_call0.v0 main_call0_call0.v1 (broadcastInDim S32x1x256 ![0, 2] bcast_S32x256_S32x1x256_0_2),
    TRef.nullary main_call0_call0.cst_0 (constant S_ .f32 0x46000000#32),
    TRef.unary main_call0_call0.cst_0 main_call0_call0.v2 (broadcastInDim S32x1x256 ![] bcast_S_S32x1x256),
    TRef.binary main_call0_call0.v1 main_call0_call0.v2 main_call0_call0.v3 Host.divf,
    TRef.unary main_call0_call0.v3 main_call0_call0.v4 (broadcastInDim S32x8192x256 ![0, 1, 2] bcast_S32x1x256_S32x8192x256_0_1_2),
    TRef.binary (.of main_arg0) main_call0_call0.v4 main_call0_call0.v5 subf,
    TRef.binary main_call0_call0.v5 main_call0_call0.v5 main_call0_call0.v6 mulf,
    TRef.unary (.of main_c) main_call0_call0.v7 (sitofp .f32),
    TRef.nullary main_call0_call0.cst_1 (constant S_ .f32 0x46000000#32),
    TRef.binary main_call0_call0.cst_1 main_call0_call0.v7 main_call0_call0.v8 subf,
    TRef.nullary main_call0_call0.cst_2 (constant S_ .f32 0x00000000#32),
    TRef.binary main_call0_call0.v6 main_call0_call0.cst_2 main_call0_call0.v9 (fun x v => Host.reduceAdd x v reducesTo_S32x8192x256_S32x256_d1 h_S_),
    TRef.unary main_call0_call0.v8 main_call0_call0.v10 (broadcastInDim S32x256 ![] bcast_S_S32x256),
    TRef.binary main_call0_call0.v9 main_call0_call0.v10 main_call0_call0.v11 Host.divf,
    TRef.nullary main_call0_call0.cst_3 (constant S_ .f32 0x00000000#32),
    TRef.binary main_call0_call0.v8 main_call0_call0.cst_3 main_call0_call0.v12 (cmpf .ogt),
    TRef.nullary main_call0_call0.cst_4 (constant S_ .f32 0x7FC00000#32),
    TRef.unary main_call0_call0.cst_4 main_call0_call0_call0.v0 id,
    TRef.unary main_call0_call0_call0.v0 main_call0_call0_call0.v1 (broadcastInDim S32x256 ![] bcast_S_S32x256),
    TRef.ternary main_call0_call0.v12 main_call0_call0.v11 main_call0_call0_call0.v1 main_call0_call0_call0.v2 (fun p a b => select (broadcastInDim S32x256 ![] bcast_S_S32x256 p) a b),
    TRef.unary main_call0_call0_call0.v2 main_call0.v1 Host.sqrt,
    nary ![main_v2, main_v3, main_v4, main_v5] main_v6 (fun u => concatenate S32x1024 1 [⟨S32x256, u 0⟩, ⟨S32x256, u 1⟩, ⟨S32x256, u 2⟩, ⟨S32x256, u 3⟩] concatenates_S32x256_S32x256_S32x256_S32x256_S32x1024_d1),
    unary main_arg1 main_v7 ((transpose S1024x512 [1, 0] · transposes_S512x1024_S1024x512_1_0) : (⟨S512x1024, .f32⟩ : BufTy).Contents (Elt F) → (⟨S1024x512, .f32⟩ : BufTy).Contents (Elt F)),
    binary main_v6 main_v7 main_v8 ((fun l r => Host.dotGeneral dot_S32x1024_S1024x512_S32x512_1_0_0_1_n_n none l r) : (⟨S32x1024, .f32⟩ : BufTy).Contents (Elt F) → (⟨S1024x512, .f32⟩ : BufTy).Contents (Elt F) → (⟨S32x512, .f32⟩ : BufTy).Contents (Elt F)),
    unary main_arg2 main_v9 (broadcastInDim S1x512 ![1] bcast_S512_S1x512_1 : (⟨S512, .f32⟩ : BufTy).Contents (Elt F) → (⟨S1x512, .f32⟩ : BufTy).Contents (Elt F)),
    unary main_v9 main_v10 (broadcastInDim S32x512 ![0, 1] bcast_S1x512_S32x512_0_1 : (⟨S1x512, .f32⟩ : BufTy).Contents (Elt F) → (⟨S32x512, .f32⟩ : BufTy).Contents (Elt F)),
    binary main_v8 main_v10 main_v11 (addf : (⟨S32x512, .f32⟩ : BufTy).Contents (Elt F) → (⟨S32x512, .f32⟩ : BufTy).Contents (Elt F) → (⟨S32x512, .f32⟩ : BufTy).Contents (Elt F)) ]

set_option maxRecDepth 1024 in
/-- @main is that straight line: the three functions' bodies unfolded at their calls, sequencing reassociated. -/
theorem main_eq (c : Dev nD) : main (F := F) c = seq ops := by
  simp only [main, fn_std.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., unary_bufs_sub .., binary_bufs_sub .., nullary_bufs_sub ..,
    binary_bufs_sub .., nullary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub ..,
    unary_bufs_sub .., unary_bufs_sub .., ternary_bufs_sub ..,
    unary_bufs_sub ..,
    nary_bufs_sub .., unary_bufs_sub .., binary_bufs_sub .., unary_bufs_sub .., unary_bufs_sub .., binary_bufs_sub ..⟩

/-! ## The line in two parts

The first 33 operations fill the four tables the concatenation reads; the last six read those tables and the two
other arguments. The fold over the whole line is the fold over the second part from the fold over the first. -/

/-- The first 33 operations: up to the standard deviation. -/
abbrev opsA : List (HloOp τ sig (Elt F)) :=
  [ nullary main_cst (constant S_ .f32 0x00000000#32),
    binary main_arg0 main_cst main_v0 ((fun x v => Host.reduceAdd x v reducesTo_S32x8192x256_S32x256_d1 h_S_) : (⟨S32x8192x256, .f32⟩ : BufTy).Contents (Elt F) → (⟨S_, .f32⟩ : BufTy).Contents (Elt F) → (⟨S32x256, .f32⟩ : BufTy).Contents (Elt F)),
    nullary main_cst_0 (constant S_ .f32 0x46000000#32),
    unary main_cst_0 main_v1 (broadcastInDim S32x256 ![] bcast_S_S32x256 : (⟨S_, .f32⟩ : BufTy).Contents (Elt F) → (⟨S32x256, .f32⟩ : BufTy).Contents (Elt F)),
    binary main_v0 main_v1 main_v2 (Host.divf : (⟨S32x256, .f32⟩ : BufTy).Contents (Elt F) → (⟨S32x256, .f32⟩ : BufTy).Contents (Elt F) → (⟨S32x256, .f32⟩ : BufTy).Contents (Elt F)),
    nullary main_cst_1 (constant S_ .f32 0x7F800000#32),
    binary main_arg0 main_cst_1 main_v3 ((fun x v => Host.reduce FloatOps.minimumf x v reducesTo_S32x8192x256_S32x256_d1 h_S_) : (⟨S32x8192x256, .f32⟩ : BufTy).Contents (Elt F) → (⟨S_, .f32⟩ : BufTy).Contents (Elt F) → (⟨S32x256, .f32⟩ : BufTy).Contents (Elt F)),
    nullary main_cst_2 (constant S_ .f32 0xFF800000#32),
    binary main_arg0 main_cst_2 main_v4 ((fun x v => Host.reduce FloatOps.maximumf x v reducesTo_S32x8192x256_S32x256_d1 h_S_) : (⟨S32x8192x256, .f32⟩ : BufTy).Contents (Elt F) → (⟨S_, .f32⟩ : BufTy).Contents (Elt F) → (⟨S32x256, .f32⟩ : BufTy).Contents (Elt F)),
    nullary main_c (constantI S_ 32 1#32),
    TRef.nullary main_call0_call0.cst (constant S_ .f32 0x00000000#32),
    TRef.binary (.of main_arg0) main_call0_call0.cst main_call0_call0.v0 (fun x v => Host.reduceAdd x v reducesTo_S32x8192x256_S32x256_d1 h_S_),
    TRef.unary main_call0_call0.v0 main_call0_call0.v1 (broadcastInDim S32x1x256 ![0, 2] bcast_S32x256_S32x1x256_0_2),
    TRef.nullary main_call0_call0.cst_0 (constant S_ .f32 0x46000000#32),
    TRef.unary main_call0_call0.cst_0 main_call0_call0.v2 (broadcastInDim S32x1x256 ![] bcast_S_S32x1x256),
    TRef.binary main_call0_call0.v1 main_call0_call0.v2 main_call0_call0.v3 Host.divf,
    TRef.unary main_call0_call0.v3 main_call0_call0.v4 (broadcastInDim S32x8192x256 ![0, 1, 2] bcast_S32x1x256_S32x8192x256_0_1_2),
    TRef.binary (.of main_arg0) main_call0_call0.v4 main_call0_call0.v5 subf,
    TRef.binary main_call0_call0.v5 main_call0_call0.v5 main_call0_call0.v6 mulf,
    TRef.unary (.of main_c) main_call0_call0.v7 (sitofp .f32),
    TRef.nullary main_call0_call0.cst_1 (constant S_ .f32 0x46000000#32),
    TRef.binary main_call0_call0.cst_1 main_call0_call0.v7 main_call0_call0.v8 subf,
    TRef.nullary main_call0_call0.cst_2 (constant S_ .f32 0x00000000#32),
    TRef.binary main_call0_call0.v6 main_call0_call0.cst_2 main_call0_call0.v9 (fun x v => Host.reduceAdd x v reducesTo_S32x8192x256_S32x256_d1 h_S_),
    TRef.unary main_call0_call0.v8 main_call0_call0.v10 (broadcastInDim S32x256 ![] bcast_S_S32x256),
    TRef.binary main_call0_call0.v9 main_call0_call0.v10 main_call0_call0.v11 Host.divf,
    TRef.nullary main_call0_call0.cst_3 (constant S_ .f32 0x00000000#32),
    TRef.binary main_call0_call0.v8 main_call0_call0.cst_3 main_call0_call0.v12 (cmpf .ogt),
    TRef.nullary main_call0_call0.cst_4 (constant S_ .f32 0x7FC00000#32),
    TRef.unary main_call0_call0.cst_4 main_call0_call0_call0.v0 id,
    TRef.unary main_call0_call0_call0.v0 main_call0_call0_call0.v1 (broadcastInDim S32x256 ![] bcast_S_S32x256),
    TRef.ternary main_call0_call0.v12 main_call0_call0.v11 main_call0_call0_call0.v1 main_call0_call0_call0.v2 (fun p a b => select (broadcastInDim S32x256 ![] bcast_S_S32x256 p) a b),
    TRef.unary main_call0_call0_call0.v2 main_call0.v1 Host.sqrt ]

/-- The last six: the concatenation, the transpose, the product, the bias broadcast twice, the sum. -/
abbrev opsB : List (HloOp τ sig (Elt F)) :=
  [ nary ![main_v2, main_v3, main_v4, main_v5] main_v6 (fun u => concatenate S32x1024 1 [⟨S32x256, u 0⟩, ⟨S32x256, u 1⟩, ⟨S32x256, u 2⟩, ⟨S32x256, u 3⟩] concatenates_S32x256_S32x256_S32x256_S32x256_S32x1024_d1),
    unary main_arg1 main_v7 ((transpose S1024x512 [1, 0] · transposes_S512x1024_S1024x512_1_0) : (⟨S512x1024, .f32⟩ : BufTy).Contents (Elt F) → (⟨S1024x512, .f32⟩ : BufTy).Contents (Elt F)),
    binary main_v6 main_v7 main_v8 ((fun l r => Host.dotGeneral dot_S32x1024_S1024x512_S32x512_1_0_0_1_n_n none l r) : (⟨S32x1024, .f32⟩ : BufTy).Contents (Elt F) → (⟨S1024x512, .f32⟩ : BufTy).Contents (Elt F) → (⟨S32x512, .f32⟩ : BufTy).Contents (Elt F)),
    unary main_arg2 main_v9 (broadcastInDim S1x512 ![1] bcast_S512_S1x512_1 : (⟨S512, .f32⟩ : BufTy).Contents (Elt F) → (⟨S1x512, .f32⟩ : BufTy).Contents (Elt F)),
    unary main_v9 main_v10 (broadcastInDim S32x512 ![0, 1] bcast_S1x512_S32x512_0_1 : (⟨S1x512, .f32⟩ : BufTy).Contents (Elt F) → (⟨S32x512, .f32⟩ : BufTy).Contents (Elt F)),
    binary main_v8 main_v10 main_v11 (addf : (⟨S32x512, .f32⟩ : BufTy).Contents (Elt F) → (⟨S32x512, .f32⟩ : BufTy).Contents (Elt F) → (⟨S32x512, .f32⟩ : BufTy).Contents (Elt F)) ]

theorem ops_eq : (ops : List (HloOp τ sig (Elt F))) = opsA ++ opsB := rfl

theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The composed term, stage by stage -/

section Term

variable (X : FVec F S32x8192x256 .f32) (W : FVec F S512x1024 .f32) (b : FVec F S512 .f32)

/-- The column sums, from the zero literal. -/
def refSum : FVec F S32x256 .f32 :=
  Host.reduceAdd X (constant S_ .f32 0x00000000#32) reducesTo_S32x8192x256_S32x256_d1 h_S_

/-- The means: the sums over the literal 8192. -/
def refMean : FVec F S32x256 .f32 :=
  Host.divf (refSum X) (broadcastInDim S32x256 ![] bcast_S_S32x256 (constant S_ .f32 0x46000000#32))

/-- The column minima, from the literal +∞. -/
def refMin : FVec F S32x256 .f32 :=
  Host.reduce FloatOps.minimumf X (constant S_ .f32 0x7F800000#32) reducesTo_S32x8192x256_S32x256_d1 h_S_

/-- The column maxima, from the literal -∞. -/
def refMax : FVec F S32x256 .f32 :=
  Host.reduce FloatOps.maximumf X (constant S_ .f32 0xFF800000#32) reducesTo_S32x8192x256_S32x256_d1 h_S_

/-- The variance's own means, kept with a unit node axis. -/
def refMeanK : FVec F S32x1x256 .f32 :=
  Host.divf (broadcastInDim S32x1x256 ![0, 2] bcast_S32x256_S32x1x256_0_2 (refSum X))
    (broadcastInDim S32x1x256 ![] bcast_S_S32x1x256 (constant S_ .f32 0x46000000#32))

/-- The deviations from the mean. -/
def refDev : FVec F S32x8192x256 .f32 :=
  subf X (broadcastInDim S32x8192x256 ![0, 1, 2] bcast_S32x1x256_S32x8192x256_0_1_2 (refMeanK X))

/-- The count less the correction: the literal 8192 minus the integer one converted. -/
def refCount : FVec F S_ .f32 :=
  subf (constant S_ .f32 0x46000000#32) (sitofp .f32 (constantI S_ 32 1#32))

/-- The sums of squared deviations over the corrected count. -/
def refQuot : FVec F S32x256 .f32 :=
  Host.divf (Host.reduceAdd (mulf (refDev X) (refDev X)) (constant S_ .f32 0x00000000#32) reducesTo_S32x8192x256_S32x256_d1 h_S_)
    (broadcastInDim S32x256 ![] bcast_S_S32x256 (refCount (F := F)))

/-- The variance: the quotient where the corrected count is positive, the NaN literal elsewhere. -/
def refVar : FVec F S32x256 .f32 :=
  select (broadcastInDim S32x256 ![] bcast_S_S32x256 (cmpf .ogt (refCount (F := F)) (constant S_ .f32 0x00000000#32)))
    (refQuot X) (broadcastInDim S32x256 ![] bcast_S_S32x256 (id (constant S_ .f32 0x7FC00000#32)))

/-- The standard deviation. -/
def refStd : FVec F S32x256 .f32 := Host.sqrt (refVar X)

/-- The four tables side by side. -/
def refFeat : FVec F S32x1024 .f32 :=
  concatenate S32x1024 1 [⟨S32x256, refMean X⟩, ⟨S32x256, refMin X⟩, ⟨S32x256, refMax X⟩, ⟨S32x256, refStd X⟩]
    concatenates_S32x256_S32x256_S32x256_S32x256_S32x1024_d1

/-- The result: the feature rows times the transposed weight, plus the bias broadcast over the rows. -/
def refTerm : FVec F S32x512 .f32 :=
  addf (Host.dotGeneral dot_S32x1024_S1024x512_S32x512_1_0_0_1_n_n none (refFeat X)
      (transpose S1024x512 [1, 0] W transposes_S512x1024_S1024x512_1_0))
    (broadcastInDim S32x512 ![0, 1] bcast_S1x512_S32x512_0_1 (broadcastInDim S1x512 ![1] bcast_S512_S1x512_1 b))

end Term

/-! ## The first part at the buffers the second reads -/

set_option maxRecDepth 4096 in
theorem A_mean (V : Valuation τ sig (Elt F)) :
    after opsA V (main_v2 : DevRef τ sig) = refMean (V (main_arg0 : DevRef τ sig)) := by
  simp (disch := decide) only [after_cons, after_nil,
      nullary_result', unary_result', binary_result', ternary_result',
      nullary_result_ne', unary_result_ne', binary_result_ne', ternary_result_ne']
  rfl

set_option maxRecDepth 4096 in
theorem A_min (V : Valuation τ sig (Elt F)) :
    after opsA V (main_v3 : DevRef τ sig) = refMin (V (main_arg0 : DevRef τ sig)) := by
  simp (disch := decide) only [after_cons, after_nil,
      nullary_result', unary_result', binary_result', ternary_result',
      nullary_result_ne', unary_result_ne', binary_result_ne', ternary_result_ne']
  rfl

set_option maxRecDepth 4096 in
theorem A_max (V : Valuation τ sig (Elt F)) :
    after opsA V (main_v4 : DevRef τ sig) = refMax (V (main_arg0 : DevRef τ sig)) := by
  simp (disch := decide) only [after_cons, after_nil,
      nullary_result', unary_result', binary_result', ternary_result',
      nullary_result_ne', unary_result_ne', binary_result_ne', ternary_result_ne']
  rfl

set_option maxRecDepth 4096 in
theorem A_std (V : Valuation τ sig (Elt F)) :
    after opsA V (main_v5 : DevRef τ sig) = refStd (V (main_arg0 : DevRef τ sig)) := by
  simp (disch := decide) only [after_cons, after_nil,
      nullary_result', unary_result', binary_result', ternary_result',
      nullary_result_ne', unary_result_ne', binary_result_ne', ternary_result_ne']
  rfl

set_option maxRecDepth 4096 in
theorem A_arg0 (V : Valuation τ sig (Elt F)) :
    after opsA V (main_arg0 : DevRef τ sig) = V (main_arg0 : DevRef τ sig) := by
  simp (disch := decide) only [after_cons, after_nil,
      nullary_result', unary_result', binary_result', ternary_result',
      nullary_result_ne', unary_result_ne', binary_result_ne', ternary_result_ne']

set_option maxRecDepth 4096 in
theorem A_arg1 (V : Valuation τ sig (Elt F)) :
    after opsA V (main_arg1 : DevRef τ sig) = V (main_arg1 : DevRef τ sig) := by
  simp (disch := decide) only [after_cons, after_nil,
      nullary_result', unary_result', binary_result', ternary_result',
      nullary_result_ne', unary_result_ne', binary_result_ne', ternary_result_ne']

set_option maxRecDepth 4096 in
theorem A_arg2 (V : Valuation τ sig (Elt F)) :
    after opsA V (main_arg2 : DevRef τ sig) = V (main_arg2 : DevRef τ sig) := by
  simp (disch := decide) only [after_cons, after_nil,
      nullary_result', unary_result', binary_result', ternary_result',
      nullary_result_ne', unary_result_ne', binary_result_ne', ternary_result_ne']

/-! ## The second part -/

theorem B_out (V : Valuation τ sig (Elt F)) :
    after opsB V (main_v11 : DevRef τ sig)
      = addf (Host.dotGeneral dot_S32x1024_S1024x512_S32x512_1_0_0_1_n_n none
          (concatenate S32x1024 1 [⟨S32x256, V (main_v2 : DevRef τ sig)⟩, ⟨S32x256, V (main_v3 : DevRef τ sig)⟩,
              ⟨S32x256, V (main_v4 : DevRef τ sig)⟩, ⟨S32x256, V (main_v5 : DevRef τ sig)⟩]
            concatenates_S32x256_S32x256_S32x256_S32x256_S32x1024_d1)
          (transpose S1024x512 [1, 0] (V (main_arg1 : DevRef τ sig)) transposes_S512x1024_S1024x512_1_0))
        (broadcastInDim S32x512 ![0, 1] bcast_S1x512_S32x512_0_1
          (broadcastInDim S1x512 ![1] bcast_S512_S1x512_1 (V (main_arg2 : DevRef τ sig)))) := by
  simp (disch := decide) only [after_cons, after_nil,
      nullary_result', unary_result', binary_result', ternary_result', nary4_result',
      nullary_result_ne', unary_result_ne', binary_result_ne', ternary_result_ne', nary_result_ne']
  rfl

theorem B_arg0 (V : Valuation τ sig (Elt F)) :
    after opsB V (main_arg0 : DevRef τ sig) = V (main_arg0 : DevRef τ sig) := by
  simp (disch := decide) only [after_cons, after_nil,
      nullary_result', unary_result', binary_result', ternary_result', nary4_result',
      nullary_result_ne', unary_result_ne', binary_result_ne', ternary_result_ne', nary_result_ne']

theorem B_arg1 (V : Valuation τ sig (Elt F)) :
    after opsB V (main_arg1 : DevRef τ sig) = V (main_arg1 : DevRef τ sig) := by
  simp (disch := decide) only [after_cons, after_nil,
      nullary_result', unary_result', binary_result', ternary_result', nary4_result',
      nullary_result_ne', unary_result_ne', binary_result_ne', ternary_result_ne', nary_result_ne']

theorem B_arg2 (V : Valuation τ sig (Elt F)) :
    after opsB V (main_arg2 : DevRef τ sig) = V (main_arg2 : DevRef τ sig) := by
  simp (disch := decide) only [after_cons, after_nil,
      nullary_result', unary_result', binary_result', ternary_result', nary4_result',
      nullary_result_ne', unary_result_ne', binary_result_ne', ternary_result_ne', nary_result_ne']

/-! ## The whole line -/

/-- The fold of the 39 operations at the result buffer is the composed term of the three arguments' contents. -/
theorem out_eq (V : Valuation τ sig (Elt F)) :
    after ops V (main_v11 : DevRef τ sig)
      = refTerm (V (main_arg0 : DevRef τ sig)) (V (main_arg1 : DevRef τ sig)) (V (main_arg2 : DevRef τ sig)) := by
  rw [ops_eq, after_append, B_out, A_mean, A_min, A_max, A_std, A_arg1, A_arg2]
  rfl

theorem arg0_eq (V : Valuation τ sig (Elt F)) :
    after ops V (main_arg0 : DevRef τ sig) = V (main_arg0 : DevRef τ sig) := by
  rw [ops_eq, after_append, B_arg0, A_arg0]

theorem arg1_eq (V : Valuation τ sig (Elt F)) :
    after ops V (main_arg1 : DevRef τ sig) = V (main_arg1 : DevRef τ sig) := by
  rw [ops_eq, after_append, B_arg1, A_arg1]

theorem arg2_eq (V : Valuation τ sig (Elt F)) :
    after ops V (main_arg2 : DevRef τ sig) = V (main_arg2 : DevRef τ sig) := by
  rw [ops_eq, after_append, B_arg2, A_arg2]

/-- On the device, for any float values, from any memory with zero counters: every weakly fair execution of @main
    terminates with the result buffer at the composed term of the three arguments' launch contents and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v11)
          = refTerm (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v11).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefValue

end
-- ==== Proof.RefStd.lean ====
/-
  The reference's standard deviation stage, read at one entry. At batch row `p` and channel `d`:
  the column sum is the sum over the node axis from the zero literal; the variance's own mean is that sum over the
  literal 8192, kept with a unit node axis and broadcast back over the 8192 nodes, so every deviation of the column
  is the entry minus the column's mean; the corrected count is the literal 8192 minus the integer one converted,
  8191; the sum of the squared deviations over 8191 is the specification's variance; the corrected count is
  positive, so the selection keeps that quotient; and the square root of it is the specification's
  standard deviation.
-/
import proofs.«103313_j35631048688006_1_alg».proof.Proof.RefRun
import proofs.«103313_j35631048688006_1_alg».proof.Proof.PoolSpec
import Idealize.ShloMosaic.PureOps.Ideal.Laws
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.ValueIdx

/-- The index a reduction over the node axis inserts at `(p, d)` and node `n` is `(p, n, d)`. -/
private theorem lift_eq (h : S32x8192x256.Reduces [1] S32x256) (p : Fin 32) (d : Fin 256) (n : Fin 8192) :
    h.lift (ix2 p d) n = ix3 p n d := by
  funext a
  apply Fin.ext
  match a with
  | ⟨0, _⟩ => rfl
  | ⟨1, _⟩ => rfl
  | ⟨2, _⟩ => rfl

/-- A sum over the node axis from the zero literal, at `(p, d)`: the sum of the column. -/
private theorem reduce_col (Y : FVec Ideal S32x8192x256 .f32) (p : Fin 32) (d : Fin 256) :
    Host.reduceAdd Y (constant S_ .f32 0x00000000#32) reducesTo_S32x8192x256_S32x256_d1 h_S_ (ix2 p d)
      = ∑ n : Fin 8192, Y (ix3 p n d) := by
  have h : S32x8192x256.Reduces [1] S32x256 := by decide
  show Ideal.hostReduceAdd reducesTo_S32x8192x256_S32x256_d1 Y (Ideal.ofBits .f32 0x00000000#32) (ix2 p d) = _
  refine (Ideal.hostReduceAdd_single reducesTo_S32x8192x256_S32x256_d1 h Y _ (ix2 p d)).trans ?_
  show Ideal.ofBits .f32 0x00000000#32 + ∑ n : Fin 8192, Y (h.lift (ix2 p d) n) = _
  rw [Cert.Pool.ofBits_zero, zero_add]
  exact Finset.sum_congr rfl fun n _ => congrArg Y (lift_eq h p d n)

/-- The column sums at `(p, d)`. -/
private theorem refSum_apply (X : FVec Ideal S32x8192x256 .f32) (p : Fin 32) (d : Fin 256) :
    refSum X (ix2 p d) = Cert.Pool.colSum X p d :=
  reduce_col X p d

/-- The variance's own mean at `(p, 0, d)` is the column's mean. -/
private theorem refMeanK_apply (X : FVec Ideal S32x8192x256 .f32) (p : Fin 32) (d : Fin 256) :
    refMeanK X (ix3 p (0 : Fin 1) d) = Cert.Pool.mean X p d := by
  have e1 : broadcastInDim S32x1x256 ![0, 2] bcast_S32x256_S32x1x256_0_2 (refSum X) (ix3 p (0 : Fin 1) d)
      = refSum X (ix2 p d) :=
    broadcastInDim_apply _ _ _ _ _ (fun a => by match a with | ⟨0, _⟩ => rfl | ⟨1, _⟩ => rfl)
  have e2 : broadcastInDim S32x1x256 ![] bcast_S_S32x1x256 (constant (F := Ideal) S_ .f32 0x46000000#32) (ix3 p (0 : Fin 1) d)
      = ((8192 : ℝ) : EReal) :=
    (broadcastInDim_apply _ _ _ _ ix0 (fun a => a.elim0)).trans Cert.Pool.ofBits_8192
  show Ideal.div (broadcastInDim S32x1x256 ![0, 2] bcast_S32x256_S32x1x256_0_2 (refSum X) (ix3 p (0 : Fin 1) d))
      (broadcastInDim S32x1x256 ![] bcast_S_S32x1x256 (constant (F := Ideal) S_ .f32 0x46000000#32) (ix3 p (0 : Fin 1) d))
    = Ideal.div (Cert.Pool.colSum X p d) ((8192 : ℝ) : EReal)
  rw [e1, e2, refSum_apply]

/-- A deviation: the entry minus its column's mean. -/
private theorem refDev_apply (X : FVec Ideal S32x8192x256 .f32) (p : Fin 32) (n : Fin 8192) (d : Fin 256) :
    refDev X (ix3 p n d) = X (ix3 p n d) - Cert.Pool.mean X p d := by
  have e : broadcastInDim S32x8192x256 ![0, 1, 2] bcast_S32x1x256_S32x8192x256_0_1_2 (refMeanK X) (ix3 p n d)
      = refMeanK X (ix3 p (0 : Fin 1) d) :=
    broadcastInDim_apply _ _ _ _ _ (fun a => by match a with | ⟨0, _⟩ => rfl | ⟨1, _⟩ => rfl | ⟨2, _⟩ => rfl)
  show X (ix3 p n d) - broadcastInDim S32x8192x256 ![0, 1, 2] bcast_S32x1x256_S32x8192x256_0_1_2 (refMeanK X) (ix3 p n d) = _
  rw [e, refMeanK_apply]

/-- The corrected count: 8192 less one. -/
private theorem refCount_apply (j : S_.Idx) : refCount (F := Ideal) j = ((8191 : ℝ) : EReal) := by
  show Ideal.ofBits .f32 0x46000000#32 - (((1#32 : BitVec 32).toInt : ℝ) : EReal) = _
  rw [Cert.Pool.ofBits_8192, show (1#32 : BitVec 32).toInt = 1 by decide, ← EReal.coe_sub]
  refine congrArg (fun r : ℝ => (r : EReal)) ?_
  norm_num

/-- The sum of squared deviations over the corrected count is the specification's variance. -/
private theorem refQuot_apply (X : FVec Ideal S32x8192x256 .f32) (p : Fin 32) (d : Fin 256) :
    refQuot X (ix2 p d) = Cert.Pool.var X p d := by
  have e1 : Host.reduceAdd (mulf (refDev X) (refDev X)) (constant S_ .f32 0x00000000#32) reducesTo_S32x8192x256_S32x256_d1 h_S_ (ix2 p d)
      = ∑ n : Fin 8192, (X (ix3 p n d) - Cert.Pool.mean X p d) * (X (ix3 p n d) - Cert.Pool.mean X p d) := by
    refine (reduce_col (mulf (refDev X) (refDev X)) p d).trans ?_
    refine Finset.sum_congr rfl fun n _ => ?_
    show refDev X (ix3 p n d) * refDev X (ix3 p n d) = _
    rw [refDev_apply]
  have e2 : broadcastInDim S32x256 ![] bcast_S_S32x256 (refCount (F := Ideal)) (ix2 p d) = ((8191 : ℝ) : EReal) :=
    (broadcastInDim_apply _ _ _ _ ix0 (fun a => a.elim0)).trans (refCount_apply ix0)
  show Ideal.div (Host.reduceAdd (mulf (refDev X) (refDev X)) (constant S_ .f32 0x00000000#32) reducesTo_S32x8192x256_S32x256_d1 h_S_ (ix2 p d))
      (broadcastInDim S32x256 ![] bcast_S_S32x256 (refCount (F := Ideal)) (ix2 p d))
    = Ideal.div (∑ n : Fin 8192, (X (ix3 p n d) - Cert.Pool.mean X p d) * (X (ix3 p n d) - Cert.Pool.mean X p d)) ((8191 : ℝ) : EReal)
  rw [e1, e2]

/-- The corrected count is positive, so the selection keeps the quotient. -/
private theorem refVar_apply (X : FVec Ideal S32x8192x256 .f32) (p : Fin 32) (d : Fin 256) :
    refVar X (ix2 p d) = Cert.Pool.var X p d := by
  have ec : broadcastInDim S32x256 ![] bcast_S_S32x256 (cmpf .ogt (refCount (F := Ideal)) (constant S_ .f32 0x00000000#32)) (ix2 p d)
      = 1#1 := by
    refine (broadcastInDim_apply _ _ _ _ ix0 (fun a => a.elim0)).trans ?_
    show Ideal.cmp .ogt (refCount (F := Ideal) ix0) (Ideal.ofBits .f32 0x00000000#32) = 1#1
    rw [refCount_apply, Cert.Pool.ofBits_zero]
    show BitVec.ofBool (decide ((0 : EReal) < ((8191 : ℝ) : EReal))) = 1#1
    rw [decide_eq_true (EReal.coe_pos.2 (by norm_num))]
    rfl
  show Scalar.select (broadcastInDim S32x256 ![] bcast_S_S32x256 (cmpf .ogt (refCount (F := Ideal)) (constant S_ .f32 0x00000000#32)) (ix2 p d))
      (refQuot X (ix2 p d)) (broadcastInDim S32x256 ![] bcast_S_S32x256 (id (constant (F := Ideal) S_ .f32 0x7FC00000#32)) (ix2 p d)) = _
  rw [ec, select_one, refQuot_apply]

/-- The reference's standard deviation at `(p, d)` is the specification's. -/
theorem refStd_apply (X : FVec Ideal S32x8192x256 .f32) (p : Fin 32) (d : Fin 256) :
    refStd X (ix2 p d) = Cert.Pool.std X p d := by
  show Ideal.sqrt (refVar X (ix2 p d)) = Ideal.sqrt (Cert.Pool.var X p d)
  rw [refVar_apply]

end Cert.ReferenceIdeal.RefValue

end
-- ==== Proof.RefValue.lean ====
/-
  At the extended reals the reference's composed term is the specification, index by index: the mean, the minimum
  and the maximum of a column, the feature row the concatenation lays out, the product with the transposed weight
  and the bias.
-/
import proofs.«103313_j35631048688006_1_alg».proof.Proof.RefRun
import proofs.«103313_j35631048688006_1_alg».proof.Proof.RefStd
import proofs.«103313_j35631048688006_1_alg».proof.Proof.PoolSpec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.StackMember

noncomputable section

namespace Cert.ReferenceIdeal.RefValue

open Cert.ReferenceIdeal Cert.ReferenceIdeal.Gen Idealize.ShloMosaic Idealize.ShloMosaic.ValueIdx

/-! ## Reading an index -/

/-- The reduction's witness at the literal shapes. -/
theorem reduces1 : S32x8192x256.Reduces [1] S32x256 := by decide

/-- A column index with the node coordinate inserted. -/
theorem lift_col (h : S32x8192x256.Reduces [1] S32x256) (p : Fin 32) (d : Fin 256) (n : Fin 8192) :
    h.lift (ix2 p d) n = ix3 p n d := by
  funext a; apply Fin.ext
  match a with
  | ⟨0, _⟩ => rfl
  | ⟨1, _⟩ => rfl
  | ⟨2, _⟩ => rfl

/-- A scalar broadcast to a table reads the scalar everywhere. -/
theorem bcast_scalar_apply {α : Type} (c : S_.Idx → α) (j : S32x256.Idx) :
    broadcastInDim S32x256 ![] bcast_S_S32x256 c j = c ix0 :=
  broadcastInDim_apply _ _ c j ix0 fun a => a.elim0

/-! ## The three plain reductions -/

theorem refSum_apply (X : FVec Ideal S32x8192x256 .f32) (p : Fin 32) (d : Fin 256) :
    refSum X (ix2 p d) = Cert.Pool.colSum X p d := by
  unfold refSum Host.reduceAdd
  rw [Ideal.hostReduceAdd_def, Ideal.hostReduceAdd_single _ reduces1, constant_apply, Cert.Pool.ofBits_zero, zero_add]
  exact Finset.sum_congr rfl fun n _ => congrArg X (lift_col reduces1 p d n)

theorem refMean_apply (X : FVec Ideal S32x8192x256 .f32) (p : Fin 32) (d : Fin 256) :
    refMean X (ix2 p d) = Cert.Pool.mean X p d := by
  unfold refMean
  show Ideal.div (refSum X (ix2 p d))
    (broadcastInDim S32x256 ![] bcast_S_S32x256 (constant (F := Ideal) S_ .f32 0x46000000#32) (ix2 p d)) = _
  rw [refSum_apply, bcast_scalar_apply, constant_apply, Cert.Pool.ofBits_8192]
  rfl

theorem refMin_apply (X : FVec Ideal S32x8192x256 .f32) (p : Fin 32) (d : Fin 256) :
    refMin X (ix2 p d) = Cert.Pool.colMin X p d := by
  unfold refMin
  rw [Host.reduce_eq_fold_single FloatOps.minimumf X _ reducesTo_S32x8192x256_S32x256_d1 reduces1 h_S_ (ix2 p d),
    constant_apply, Cert.Pool.ofBits_top]
  have hf : (X ∘ reduces1.lift (ix2 p d)) = fun n : Fin 8192 => X (ix3 p n d) :=
    funext fun n => congrArg X (lift_col reduces1 p d n)
  rw [hf]
  rfl

theorem refMax_apply (X : FVec Ideal S32x8192x256 .f32) (p : Fin 32) (d : Fin 256) :
    refMax X (ix2 p d) = Cert.Pool.colMax X p d := by
  unfold refMax
  rw [Host.reduce_eq_fold_single FloatOps.maximumf X _ reducesTo_S32x8192x256_S32x256_d1 reduces1 h_S_ (ix2 p d),
    constant_apply, Cert.Pool.ofBits_bot]
  have hf : (X ∘ reduces1.lift (ix2 p d)) = fun n : Fin 8192 => X (ix3 p n d) :=
    funext fun n => congrArg X (lift_col reduces1 p d n)
  rw [hf]
  rfl

/-! ## The feature row -/

/-- The four tables side by side read, at column k of row p, the table whose span holds k, at k less the
    spans before it: the specification's feature row. -/
theorem refFeat_apply (X : FVec Ideal S32x8192x256 .f32) (p : Fin 32) (k : Fin 1024) :
    refFeat X (ix2 p k) = Cert.Pool.feat X p k := by
  unfold refFeat Cert.Pool.feat
  by_cases h0 : k.val < 256
  · rw [dif_pos h0]
    refine (concatenate_apply_piece (t := S32x1024) 1 _ _ (ix2 p k) 0 (by show (0 : ℕ) < 4; omega) S32x256 (refMean X) rfl rfl 0 rfl
      (ix2 p ⟨k.val, h0⟩) ?_ ?_).trans (refMean_apply X p _)
    · intro b hb
      match b with
      | ⟨0, _⟩ => rfl
      | ⟨1, _⟩ => exact absurd rfl hb
    · show 0 + k.val = k.val
      omega
  · rw [dif_neg h0]
    by_cases h1 : k.val < 512
    · rw [dif_pos h1]
      refine (concatenate_apply_piece (t := S32x1024) 1 _ _ (ix2 p k) 1 (by show (1 : ℕ) < 4; omega) S32x256 (refMin X) rfl rfl 256 rfl
        (ix2 p ⟨k.val - 256, by omega⟩) ?_ ?_).trans (refMin_apply X p _)
      · intro b hb
        match b with
        | ⟨0, _⟩ => rfl
        | ⟨1, _⟩ => exact absurd rfl hb
      · show 256 + (k.val - 256) = k.val
        omega
    · rw [dif_neg h1]
      by_cases h2 : k.val < 768
      · rw [dif_pos h2]
        refine (concatenate_apply_piece (t := S32x1024) 1 _ _ (ix2 p k) 2 (by show (2 : ℕ) < 4; omega) S32x256 (refMax X) rfl rfl 512 rfl
          (ix2 p ⟨k.val - 512, by omega⟩) ?_ ?_).trans (refMax_apply X p _)
        · intro b hb
          match b with
          | ⟨0, _⟩ => rfl
          | ⟨1, _⟩ => exact absurd rfl hb
        · show 512 + (k.val - 512) = k.val
          omega
      · rw [dif_neg h2]
        refine (concatenate_apply_piece (t := S32x1024) 1 _ _ (ix2 p k) 3 (by show (3 : ℕ) < 4; omega) S32x256 (refStd X) rfl rfl 768 rfl
          (ix2 p ⟨k.val - 768, by have := k.isLt; omega⟩) ?_ ?_).trans (refStd_apply X p _)
        · intro b hb
          match b with
          | ⟨0, _⟩ => rfl
          | ⟨1, _⟩ => exact absurd rfl hb
        · show 768 + (k.val - 768) = k.val
          omega

/-! ## The product and the bias -/

/-- The bias broadcast over the rows reads the bias at the column. -/
theorem bias_apply (b : FVec Ideal S512 .f32) (p : Fin 32) (q : Fin 512) :
    broadcastInDim S32x512 ![0, 1] bcast_S1x512_S32x512_0_1 (broadcastInDim S1x512 ![1] bcast_S512_S1x512_1 b) (ix2 p q)
      = b (ix1 q) := by
  rw [broadcastInDim_apply _ _ _ (ix2 p q) (ix2 (0 : Fin 1) q) fun a => match a with | ⟨0, _⟩ => rfl | ⟨1, _⟩ => rfl,
    broadcastInDim_apply _ _ b (ix2 (0 : Fin 1) q) (ix1 q) fun a => match a with | ⟨0, _⟩ => rfl]

theorem refTerm_apply (X : FVec Ideal S32x8192x256 .f32) (W : FVec Ideal S512x1024 .f32) (b : FVec Ideal S512 .f32)
    (p : Fin 32) (q : Fin 512) :
    refTerm X W b (ix2 p q) = Cert.Pool.outAt X W b p q := by
  unfold refTerm Cert.Pool.outAt
  rw [addf_apply, bias_apply]
  have hd : dot_S32x1024_S1024x512_S32x512_1_0_0_1_n_n = DotDims.plain 32 1024 512 := rfl
  rw [hd, StackMember.dotGeneral_plain_apply]
  congr 1
  refine Finset.sum_congr rfl fun c _ => ?_
  rw [refFeat_apply X, transpose_ix2_apply]

/-! ## The reference's result is the specification -/

theorem ref_eq_out (X : FVec Ideal S32x8192x256 .f32) (W : FVec Ideal S512x1024 .f32) (b : FVec Ideal S512 .f32) :
    refTerm X W b = Cert.Pool.out X W b := by
  funext i
  obtain ⟨p, q, rfl⟩ : ∃ (p : Fin 32) (q : Fin 512), i = ix2 p q := ⟨_, _, eq_ix2 i⟩
  rw [Cert.Pool.out_ix2]
  exact refTerm_apply X W b p q

open Idealize.ShloMosaic.TcCoe Idealize.SL.Sem Idealize.ShloMosaic.StableHlo in
/-- On the device, at the extended reals, from any memory with zero counters: every weakly fair execution of the
    reference terminates with the result buffer at the specification of the three arguments' launch contents, and
    the arguments unchanged. -/
theorem run_out (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v11) = Cert.Pool.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (ref_eq_out _ _ _), (h c).2⟩) (run (F := Ideal) m ρ)

end Cert.ReferenceIdeal.RefValue

end
-- ==== Proof.lean ====
/-
  The certificate of the node-pooling kernel against its jnp reference.

  Both programs take X : [32, 8192, 256], W : [512, 1024] and b : [512] and return [32, 512]: for each batch row and
  channel the node axis is reduced to its mean, minimum, maximum and unbiased standard deviation; the four [32, 256]
  tables are laid side by side into [32, 1024] feature rows, multiplied by the transposed weight and shifted by the
  bias (Proof/PoolSpec.lean states this function once).

  The kernel walks the node axis in eight tiles of 1024 per group of eight batch rows, carrying the running sum, sum of
  squares, minimum and maximum in four accumulators; after every grid point they hold the running reductions of the
  columns (Proof/KernelAccum.lean, by induction on the point), so at a group's last tile they hold the whole columns'
  (Proof/PoolTiles.lean: eight tiles make the column). There the body forms the variance as
  `max ((Σx² - (n · mean) · mean) / (n - 1)) 0`, where the reference sums squared deviations from the mean: over the reals
  the two agree, the sum of squared deviations being `Σx² - n · mean²` and nonnegative (Proof/PoolAlgebra.lean). This is
  the one place the precondition is used: distributing over the sum needs every entry of X to be a real number, which
  the finiteness of the inputs gives (Proof/PoolFinite.lean). Sums, minima and maxima regroup freely on the extended
  reals, and the weight and the bias enter both sides the same way.

  The reference's run is read operation by operation (Proof/RefRun.lean, Proof/RefValue.lean). The two word-level and
  idealized frames are the generated ones; the reference's frame is its run with the result forgotten. The idealization
  rewrote nothing, so the second conjunct is trivial.
-/
import proofs.«103313_j35631048688006_1_alg».proof.Defs
import proofs.«103313_j35631048688006_1_alg».proof.Proof.Gen.Kernel
import proofs.«103313_j35631048688006_1_alg».proof.Proof.Gen.Kernel.Skeleton
import proofs.«103313_j35631048688006_1_alg».proof.Proof.Gen.Kernel.Launch
import proofs.«103313_j35631048688006_1_alg».proof.Proof.Gen.Kernel.Points
import proofs.«103313_j35631048688006_1_alg».proof.Proof.Gen.Kernel.Frame
import proofs.«103313_j35631048688006_1_alg».proof.Proof.Gen.KernelIdeal
import proofs.«103313_j35631048688006_1_alg».proof.Proof.Gen.KernelIdeal.Skeleton
import proofs.«103313_j35631048688006_1_alg».proof.Proof.Gen.KernelIdeal.Launch
import proofs.«103313_j35631048688006_1_alg».proof.Proof.Gen.KernelIdeal.Points
import proofs.«103313_j35631048688006_1_alg».proof.Proof.Gen.KernelIdeal.Frame
import proofs.«103313_j35631048688006_1_alg».proof.Proof.Gen.KernelIdeal.Value
import proofs.«103313_j35631048688006_1_alg».proof.Proof.Gen.ReferenceIdeal
import proofs.«103313_j35631048688006_1_alg».proof.Proof.Gen.Pre_finite_inputs
import proofs.«103313_j35631048688006_1_alg».proof.Proof.KernelValue
import proofs.«103313_j35631048688006_1_alg».proof.Proof.PoolFinite
import proofs.«103313_j35631048688006_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.RefValue.run_out m ρ)

theorem preserves : Cert.preserves_Kernel_KernelIdeal := trivial

/-- Both idealized programs end with the specification's array of the arguments: the kernel's run under the
    finiteness of X, the reference's unconditionally, from memories that agree on the arguments. -/
theorem algebraic : Cert.algebraic_KernelIdeal_ReferenceIdeal := by
  intro m ρ m' ρ' hpre hagree
  have hX : ∀ (c : Dev Cert.KernelIdeal.nD) i, ∃ r : ℝ, Cert.KernelIdeal.Accum.X m c i = (r : EReal) :=
    fun c => Cert.Pool.entries_real _ _ _ (hpre c)
  refine ⟨fun c => Cert.KernelIdeal.Final.result m c, Cert.KernelIdeal.Final.run m ρ hX, ?_⟩
  refine (θ_run Cert.ReferenceIdeal.defs _ _).mono (fun _ h c => ⟨(h c).1.trans ?_, (h c).2⟩)
    (Cert.ReferenceIdeal.RefValue.run_out m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
